-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S2x128 : Shape := ⟨2, ![2, 128]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x128 : S_.BroadcastsInDim S2x128 (![] : Fin 0 → Fin S2x128.rank)
  reducesTo_S2x128_S_d0_1 : S2x128.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg8 : FVec F S2x128 .f32) (main_arg9 : FVec F S2 .f32) (main_v33 : IVec S_ 1) : IVec S_ 1 :=
  let main_v34 : FVec F S2x128 .f32 := Host.absf main_arg8
  let main_cst_12 : FVec F S_ .f32 := constant S_ .f32 0x7F800000#32
  let main_v35 : FVec F S2x128 .f32 := broadcastInDim S2x128 ![] bcast_S_S2x128 main_cst_12
  let main_v36 : IVec S2x128 1 := cmpf .olt main_v34 main_v35
  let main_c_13 : IVec S_ 1 := constantI S_ 1 1#1
  let main_v37 : IVec S_ 1 := (fun x v => Host.reduce IntOp.andi x v reducesTo_S2x128_S_d0_1 h_S_) main_v36 main_c_13
  let main_v38 : IVec S_ 1 := andi main_v33 main_v37
  let main_v39 : FVec F S2 .f32 := Host.absf main_arg9
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg5 : FVec F S128x128 .f32) (main_arg6 : FVec F S128 .f32) (main_arg7 : FVec F S128x128 .f32) (main_arg8 : FVec F S2x128 .f32) (main_arg9 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S2x128 .f32) (main_arg9 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S2x128 : Shape := ⟨2, ![2, 128]⟩
abbrev S2 : Shape := ⟨1, ![2]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S5000x128 : Shape := ⟨2, ![5000, 128]⟩
abbrev S5000x1 : Shape := ⟨2, ![5000, 1]⟩
abbrev S1x2 : Shape := ⟨2, ![1, 2]⟩
abbrev S50000x2 : Shape := ⟨2, ![50000, 2]⟩
abbrev S5000x2 : Shape := ⟨2, ![5000, 2]⟩
abbrev S128x2 : Shape := ⟨2, ![128, 2]⟩
abbrev S5000 : Shape := ⟨1, ![5000]⟩

abbrev nBuf : Space → Nat
  | .hbm => 58
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S2x128, .f32⟩
  | .hbm, ⟨9, _⟩ => ⟨S2, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .f32⟩
  | .hbm, ⟨15, _⟩ => ⟨S800000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000x1, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x128, .f32⟩
  | .hbm, ⟨36, _⟩ => ⟨S_, .f32⟩
  | .hbm, ⟨37, _⟩ => ⟨S50000x128, .f32⟩
  | .hbm, ⟨38, _⟩ => ⟨S800000x1, .i32⟩
  | .hbm, ⟨39, _⟩ => ⟨S50000x128, .f32⟩
  | .hbm, ⟨40, _⟩ => ⟨S1x128, .f32⟩
  | .hbm, ⟨41, _⟩ => ⟨S50000x128, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x128, .f32⟩
  | .hbm, ⟨51, _⟩ => ⟨S_, .f32⟩
  | .hbm, ⟨52, _⟩ => ⟨S50000x128, .f32⟩
  | .hbm, ⟨53, _⟩ => ⟨S800000x1, .i32⟩
  | .hbm, ⟨54, _⟩ => ⟨S50000x128, .f32⟩
  | .hbm, ⟨55, _⟩ => ⟨S1x128, .f32⟩
  | .hbm, ⟨56, _⟩ => ⟨S1x2, .f32⟩
  | .hbm, ⟨57, _⟩ => ⟨S50000x2, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x1, .f32⟩
  | .local _ .vmem, ⟨16, _⟩ => ⟨S5000x1, .f32⟩
  | .local _ .vmem, ⟨17, _⟩ => ⟨S128x128, .f32⟩
  | .local _ .vmem, ⟨18, _⟩ => ⟨S1x128, .f32⟩
  | .local _ .vmem, ⟨19, _⟩ => ⟨S128x128, .f32⟩
  | .local _ .vmem, ⟨20, _⟩ => ⟨S2x128, .f32⟩
  | .local _ .vmem, ⟨21, _⟩ => ⟨S1x2, .f32⟩
  | .local _ .vmem, ⟨22, _⟩ => ⟨S5000x2, .f32⟩
  | .local _ .vmem, ⟨23, _⟩ => ⟨S5000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_7 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S2x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x2 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x2 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S2_S1x2 : S2.ShapeCasts S1x2
  inb_S2x128_S2x128_0_0 : ∀ a, (![0, 0] : Fin 2 → Nat) a + S2x128.size a ≤ S2x128.size a
  h_S2x128 : 0 < S2x128.numel
  transposes_S2x128_p1_0_S128x2 : S2x128.Transposes [1, 0] S128x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  reduces_S5000x2_S5000 : S5000x2.Reduces [1] S5000
  shapeCasts_S5000_S5000x1 : S5000.ShapeCasts S5000x1
  broadcasts_S5000x1_S5000x2 : S5000x1.Broadcasts S5000x2
  inb_S5000x2_S5000x2_0_0 : ∀ a, (![0, 0] : Fin 2 → Nat) a + S5000x2.size a ≤ S5000x2.size a
  h_S5000x2 : 0 < S5000x2.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x2_S5000x2_1_0_0_1_n_n_wf : DotDims.WF S5000x128 S128x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S2x128.size a ≤ S2x128.size a
  hwx1_6 : ∀ i : grid1.Coords, EltTy.bits .f32 = 32 ∨ (Rect.block (s := S2x128) S2x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x2.size a ≤ S1x2.size a
  hwx1_7 : ∀ i : grid1.Coords, EltTy.bits .f32 = 32 ∨ (Rect.block (s := S1x2) S1x2.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x2.size a ≤ S50000x2.size a
  hwx1_8 : ∀ i : grid1.Coords, EltTy.bits .f32 = 32 ∨ (Rect.block (s := S50000x2) S5000x2.size (cc1_transform_8 i) (hinb1_8 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x2_S5000x2_1_0_0_1_n_n : DotDims S5000x128 S128x2 S5000x2 where
  lhsContracting := [1]
  rhsContracting := [0]
  lhsNonContracting := [0]
  rhsNonContracting := [1]
  lhsBatch := []
  rhsBatch := []
  wf := dot_S5000x128_S128x2_S5000x2_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v24) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S2x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v36) S1x2.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v37) S5000x2.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S2x128 : Shape := ⟨2, ![2, 128]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S128x2 : Shape := ⟨2, ![128, 2]⟩
abbrev S50000x2 : Shape := ⟨2, ![50000, 2]⟩
abbrev S1x2 : Shape := ⟨2, ![1, 2]⟩

abbrev nBuf : Space → Nat
  | .hbm => 106
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S2x128, .f32⟩
  | .hbm, ⟨9, _⟩ => ⟨S2, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S_, .f32⟩
  | .hbm, ⟨24, _⟩ => ⟨S50000x128, .f32⟩
  | .hbm, ⟨25, _⟩ => ⟨S800000x1, .i32⟩
  | .hbm, ⟨26, _⟩ => ⟨S50000x128, .f32⟩
  | .hbm, ⟨27, _⟩ => ⟨S_, .f32⟩
  | .hbm, ⟨28, _⟩ => ⟨S800000, .f32⟩
  | .hbm, ⟨29, _⟩ => ⟨S_, .f32⟩
  | .hbm, ⟨30, _⟩ => ⟨S50000, .f32⟩
  | .hbm, ⟨31, _⟩ => ⟨S800000x1, .i32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S50000x128, .f32⟩
  | .hbm, ⟨38, _⟩ => ⟨S50000x128, .f32⟩
  | .hbm, ⟨39, _⟩ => ⟨S128x128, .f32⟩
  | .hbm, ⟨40, _⟩ => ⟨S50000x128, .f32⟩
  | .hbm, ⟨41, _⟩ => ⟨S1x128, .f32⟩
  | .hbm, ⟨42, _⟩ => ⟨S50000x128, .f32⟩
  | .hbm, ⟨43, _⟩ => ⟨S50000x128, .f32⟩
  | .hbm, ⟨44, _⟩ => ⟨S128x128, .f32⟩
  | .hbm, ⟨45, _⟩ => ⟨S50000x128, .f32⟩
  | .hbm, ⟨46, _⟩ => ⟨S50000x128, .f32⟩
  | .hbm, ⟨47, _⟩ => ⟨S_, .f32⟩
  | .hbm, ⟨48, _⟩ => ⟨S50000x128, .f32⟩
  | .hbm, ⟨49, _⟩ => ⟨S50000x128, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x128, .f32⟩
  | .hbm, ⟨59, _⟩ => ⟨S_, .f32⟩
  | .hbm, ⟨60, _⟩ => ⟨S50000x128, .f32⟩
  | .hbm, ⟨61, _⟩ => ⟨S800000x1, .i32⟩
  | .hbm, ⟨62, _⟩ => ⟨S50000x128, .f32⟩
  | .hbm, ⟨63, _⟩ => ⟨S_, .f32⟩
  | .hbm, ⟨64, _⟩ => ⟨S800000, .f32⟩
  | .hbm, ⟨65, _⟩ => ⟨S_, .f32⟩
  | .hbm, ⟨66, _⟩ => ⟨S50000, .f32⟩
  | .hbm, ⟨67, _⟩ => ⟨S800000x1, .i32⟩
  | .hbm, ⟨68, _⟩ => ⟨S50000, .f32⟩
  | .hbm, ⟨69, _⟩ => ⟨S_, .f32⟩
  | .hbm, ⟨70, _⟩ => ⟨S50000, .f32⟩
  | .hbm, ⟨71, _⟩ => ⟨S50000, .f32⟩
  | .hbm, ⟨72, _⟩ => ⟨S50000x1, .f32⟩
  | .hbm, ⟨73, _⟩ => ⟨S50000x128, .f32⟩
  | .hbm, ⟨74, _⟩ => ⟨S50000x128, .f32⟩
  | .hbm, ⟨75, _⟩ => ⟨S128x128, .f32⟩
  | .hbm, ⟨76, _⟩ => ⟨S50000x128, .f32⟩
  | .hbm, ⟨77, _⟩ => ⟨S1x128, .f32⟩
  | .hbm, ⟨78, _⟩ => ⟨S50000x128, .f32⟩
  | .hbm, ⟨79, _⟩ => ⟨S50000x128, .f32⟩
  | .hbm, ⟨80, _⟩ => ⟨S128x128, .f32⟩
  | .hbm, ⟨81, _⟩ => ⟨S50000x128, .f32⟩
  | .hbm, ⟨82, _⟩ => ⟨S50000x128, .f32⟩
  | .hbm, ⟨83, _⟩ => ⟨S_, .f32⟩
  | .hbm, ⟨84, _⟩ => ⟨S50000x128, .f32⟩
  | .hbm, ⟨85, _⟩ => ⟨S50000x128, .f32⟩
  | .hbm, ⟨86, _⟩ => ⟨S128x2, .f32⟩
  | .hbm, ⟨87, _⟩ => ⟨S50000x2, .f32⟩
  | .hbm, ⟨88, _⟩ => ⟨S1x2, .f32⟩
  | .hbm, ⟨89, _⟩ => ⟨S50000x2, .f32⟩
  | .hbm, ⟨90, _⟩ => ⟨S50000x2, .f32⟩
  | .hbm, ⟨91, _⟩ => ⟨S_, .f32⟩
  | .hbm, ⟨92, _⟩ => ⟨S50000, .f32⟩
  | .hbm, ⟨93, _⟩ => ⟨S_, .f32⟩
  | .hbm, ⟨94, _⟩ => ⟨S50000, .f32⟩
  | .hbm, ⟨95, _⟩ => ⟨S50000, .f32⟩
  | .hbm, ⟨96, _⟩ => ⟨S50000x1, .f32⟩
  | .hbm, ⟨97, _⟩ => ⟨S50000x2, .f32⟩
  | .hbm, ⟨98, _⟩ => ⟨S50000x2, .f32⟩
  | .hbm, ⟨99, _⟩ => ⟨S50000x2, .f32⟩
  | .hbm, ⟨100, _⟩ => ⟨S_, .f32⟩
  | .hbm, ⟨101, _⟩ => ⟨S50000, .f32⟩
  | .hbm, ⟨102, _⟩ => ⟨S50000x1, .f32⟩
  | .hbm, ⟨103, _⟩ => ⟨S50000x1, .f32⟩
  | .hbm, ⟨104, _⟩ => ⟨S50000x2, .f32⟩
  | .hbm, ⟨105, _⟩ => ⟨S50000x2, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call0_cst : Ref sig .tc := ⟨.hbm, 47, rfl⟩
abbrev main_call0_v0 : Ref sig .tc := ⟨.hbm, 48, rfl⟩
abbrev main_v31 : Ref sig .tc := ⟨.hbm, 49, rfl⟩
abbrev main_c_4 : Ref sig .tc := ⟨.hbm, 50, rfl⟩
abbrev main_v32 : Ref sig .tc := ⟨.hbm, 51, rfl⟩
abbrev main_v33 : Ref sig .tc := ⟨.hbm, 52, rfl⟩
abbrev main_c_5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_6 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_7 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_9 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_call1_cst : Ref sig .tc := ⟨.hbm, 83, rfl⟩
abbrev main_call1_v0 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_call2_cst_0 : Ref sig .tc := ⟨.hbm, 93, rfl⟩
abbrev main_call2_v1 : Ref sig .tc := ⟨.hbm, 94, rfl⟩
abbrev main_call2_v2 : Ref sig .tc := ⟨.hbm, 95, rfl⟩
abbrev main_call2_v3 : Ref sig .tc := ⟨.hbm, 96, rfl⟩
abbrev main_call2_v4 : Ref sig .tc := ⟨.hbm, 97, rfl⟩
abbrev main_call2_v5 : Ref sig .tc := ⟨.hbm, 98, rfl⟩
abbrev main_call2_v6 : Ref sig .tc := ⟨.hbm, 99, rfl⟩
abbrev main_call2_cst_1 : Ref sig .tc := ⟨.hbm, 100, rfl⟩
abbrev main_call2_v7 : Ref sig .tc := ⟨.hbm, 101, rfl⟩
abbrev main_call2_v8 : Ref sig .tc := ⟨.hbm, 102, rfl⟩
abbrev main_call2_v9 : Ref sig .tc := ⟨.hbm, 103, rfl⟩
abbrev main_call2_v10 : Ref sig .tc := ⟨.hbm, 104, rfl⟩
abbrev main_v65 : Ref sig .tc := ⟨.hbm, 105, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S2x128_S128x2_1_0 : S2x128.Transposes [1, 0] S128x2
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  reducesTo_S50000x2_S50000_d1 : S50000x2.ReducesTo [1] S50000
  h_S_ : 0 < S_.numel
  bcast_S50000x1_S50000x2_0_1 : S50000x1.BroadcastsInDim S50000x2 (![0, 1] : Fin 2 → Fin S50000x2.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x2_S50000x2_1_0_0_1_n_n_wf : DotDims.WF S50000x128 S128x2 S50000x2 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x2_S50000x2_1_0_0_1_n_n : DotDims S50000x128 S128x2 S50000x2 where
  lhsContracting := [1]
  rhsContracting := [0]
  lhsNonContracting := [0]
  rhsNonContracting := [1]
  lhsBatch := []
  rhsBatch := []
  wf := dot_S50000x128_S128x2_S50000x2_1_0_0_1_n_n_wf

class Facts : Prop extends Facts₀ where

variable [Facts]
-- ==== Proof.Spec.lean ====
/-
  The mathematics of the two-layer neighbour-mean network, with no program in sight.

  A layer sends, at node `i` and output feature `j`,
      relu( Σ_k mean_i(k) · Wl(j,k) + bl(j) + Σ_k x(i,k) · Wr(j,k) ),
  where `mean_i(k)` is the neighbour sum `A(i,k)` over the clamped in-degree `d(i) = max(deg i, 1)`. One
  arrangement multiplies the neighbour sum by the reciprocal `1 / d(i)`; the other divides it by `d(i)`.
  On the extended reals the two agree as soon as `d(i) ≠ 0` (the quotient IS the product with the inverse there,
  at `d = ⊤` too), so the layers agree with no finiteness at all.

  The head is a log-softmax over two classes. One arrangement computes `l − (m + log Σ exp(l − m))`, the other
  `(l − m) − log Σ exp(l − m)`, with `m` the row maximum. Regrouping a difference across a sum is valid on the
  extended reals when `m` is a real number and can fail when it is infinite, so here finiteness of the logits is
  used, and it is carried from the inputs through both layers: sums and products of reals are real, a maximum of
  reals is real, the reciprocal of something at least one is real, and the neighbour aggregation is only assumed to
  send arrays of reals to arrays of reals.
-/
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx
open scoped BigOperators

/-! ## Shapes -/

abbrev SNF : Shape := ⟨2, ![50000, 128]⟩
abbrev SN1 : Shape := ⟨2, ![50000, 1]⟩
abbrev SN : Shape := ⟨1, ![50000]⟩
abbrev SFF : Shape := ⟨2, ![128, 128]⟩
abbrev S1F : Shape := ⟨2, ![1, 128]⟩
abbrev SF : Shape := ⟨1, ![128]⟩
abbrev S2F : Shape := ⟨2, ![2, 128]⟩
abbrev S12 : Shape := ⟨2, ![1, 2]⟩
abbrev S2v : Shape := ⟨1, ![2]⟩
abbrev SN2 : Shape := ⟨2, ![50000, 2]⟩

/-- The float zero and one of the programs, as extended reals. -/
abbrev Zf : EReal := Ideal.ofBits .f32 0x00000000#32
abbrev Of : EReal := Ideal.ofBits .f32 0x3F800000#32

theorem Zf_eq : Zf = 0 := Ideal.ofBits_zero_f32
theorem Of_eq : Of = 1 := by simp [Ideal.ofBits, Ideal.ieee, -EReal.coe_mul]; norm_num

/-! ## Being a real number -/

/-- An extended real that is a real number. -/
def IsReal (x : EReal) : Prop := ∃ r : ℝ, x = (r : EReal)

/-- An array all of whose entries are real numbers. -/
def AllReal {ι : Type} (f : ι → EReal) : Prop := ∀ i, IsReal (f i)

theorem isReal_zero : IsReal 0 := ⟨0, EReal.coe_zero.symm⟩
theorem isReal_one : IsReal 1 := ⟨1, EReal.coe_one.symm⟩
theorem isReal_Zf : IsReal Zf := Zf_eq ▸ isReal_zero
theorem isReal_add {x y : EReal} (hx : IsReal x) (hy : IsReal y) : IsReal (x + y) := by
  obtain ⟨a, rfl⟩ := hx; obtain ⟨b, rfl⟩ := hy; exact ⟨a + b, (EReal.coe_add a b).symm⟩
theorem isReal_mul {x y : EReal} (hx : IsReal x) (hy : IsReal y) : IsReal (x * y) := by
  obtain ⟨a, rfl⟩ := hx; obtain ⟨b, rfl⟩ := hy; exact ⟨a * b, (EReal.coe_mul a b).symm⟩
theorem isReal_max {x y : EReal} (hx : IsReal x) (hy : IsReal y) : IsReal (max x y) := by
  rcases le_total x y with h | h
  · rw [max_eq_right h]; exact hy
  · rw [max_eq_left h]; exact hx
theorem isReal_sum {ι : Type} (s : Finset ι) (f : ι → EReal) (h : ∀ i ∈ s, IsReal (f i)) : IsReal (∑ i ∈ s, f i) :=
  Finset.sum_induction f IsReal (fun _ _ => isReal_add) isReal_zero h

/-- The reciprocal of something at least one is a real number (it is `0` at `⊤`). -/
theorem isReal_recip {d : EReal} (hd : 1 ≤ d) : IsReal (Ideal.div Of d) := by
  have hne : d ≠ 0 := fun h => by rw [h] at hd; exact absurd hd (by norm_num)
  rw [Ideal.div, if_neg hne, Of_eq, one_mul]
  induction d using EReal.rec with
  | bot => exact absurd (le_bot_iff.mp hd) (by rw [← EReal.coe_one]; exact EReal.coe_ne_bot 1)
  | top => exact ⟨0, by simp⟩
  | coe r => exact ⟨r⁻¹, (EReal.coe_inv r).symm⟩

/-- A quotient by a nonzero extended real is the product with the reciprocal. -/
theorem div_eq_mul_recip (a : EReal) {d : EReal} (hd : d ≠ 0) : Ideal.div a d = a * Ideal.div Of d := by
  rw [Ideal.div, if_neg hd, Ideal.div, if_neg hd, Of_eq, one_mul]

theorem ne_zero_of_one_le {d : EReal} (hd : 1 ≤ d) : d ≠ 0 :=
  fun h => by rw [h] at hd; exact absurd hd (by norm_num)

/-- Regrouping a difference across a sum, valid when the middle term is a real number. -/
theorem sub_add_regroup (a L : EReal) {m : EReal} (hm : IsReal m) : a - (m + L) = a - m - L := by
  obtain ⟨r, rfl⟩ := hm
  rw [sub_eq_add_neg, EReal.neg_add (Or.inl (EReal.coe_ne_bot r)) (Or.inl (EReal.coe_ne_top r)),
    sub_eq_add_neg (-(r : EReal)), ← add_assoc, ← sub_eq_add_neg a, ← sub_eq_add_neg]

/-! ## One layer -/

/-- One entry of a layer, the neighbour sums scaled by the factor `s` before the contraction. -/
def layerEntry (a x : Fin 128 → EReal) (s : EReal) (wl wr : Fin 128 → EReal) (b : EReal) : EReal :=
  max ((∑ k : Fin 128, a k * s * wl k) + b + ∑ k : Fin 128, x k * wr k) Zf

/-- One entry of a layer, the neighbour sums divided by `d` before the contraction. -/
def layerEntryDiv (a x : Fin 128 → EReal) (d : EReal) (wl wr : Fin 128 → EReal) (b : EReal) : EReal :=
  max ((∑ k : Fin 128, Ideal.div (a k) d * wl k) + b + ∑ k : Fin 128, x k * wr k) Zf

theorem layerEntryDiv_eq (a x : Fin 128 → EReal) {d : EReal} (hd : d ≠ 0) (wl wr : Fin 128 → EReal) (b : EReal) :
    layerEntryDiv a x d wl wr b = layerEntry a x (Ideal.div Of d) wl wr b := by
  unfold layerEntryDiv layerEntry
  have e : ∀ k, Ideal.div (a k) d * wl k = a k * Ideal.div Of d * wl k := fun k => by rw [div_eq_mul_recip _ hd]
  simp only [e]

theorem isReal_layerEntry {a x : Fin 128 → EReal} {s : EReal} {wl wr : Fin 128 → EReal} {b : EReal}
    (ha : AllReal a) (hx : AllReal x) (hs : IsReal s) (hwl : AllReal wl) (hwr : AllReal wr) (hb : IsReal b) :
    IsReal (layerEntry a x s wl wr b) :=
  isReal_max (isReal_add (isReal_add (isReal_sum _ _ fun k _ => isReal_mul (isReal_mul (ha k) hs) (hwl k)) hb)
    (isReal_sum _ _ fun k _ => isReal_mul (hx k) (hwr k))) isReal_Zf

/-- A whole layer in the scaled arrangement: the scale a column `[n, 1]`, the bias a row `[1, 128]`. -/
def layerK (A : SNF.Idx → EReal) (s : SN1.Idx → EReal) (x : SNF.Idx → EReal) (Wl : SFF.Idx → EReal)
    (bl : S1F.Idx → EReal) (Wr : SFF.Idx → EReal) : SNF.Idx → EReal := fun i =>
  layerEntry (fun k => A (ix2 (n0 := 50000) (i 0) k)) (fun k => x (ix2 (n0 := 50000) (i 0) k))
    (s (ix2 (n0 := 50000) (n1 := 1) (i 0) 0)) (fun k => Wl (ix2 (n0 := 128) (i 1) k)) (fun k => Wr (ix2 (n0 := 128) (i 1) k))
    (bl (ix2 (n0 := 1) (n1 := 128) 0 (i 1)))

/-- A whole layer in the divided arrangement: the divisor and the bias vectors. -/
def layerR (A : SNF.Idx → EReal) (d : SN.Idx → EReal) (x : SNF.Idx → EReal) (Wl : SFF.Idx → EReal)
    (bl : SF.Idx → EReal) (Wr : SFF.Idx → EReal) : SNF.Idx → EReal := fun i =>
  layerEntryDiv (fun k => A (ix2 (n0 := 50000) (i 0) k)) (fun k => x (ix2 (n0 := 50000) (i 0) k))
    (d (ix1 (n := 50000) (i 0))) (fun k => Wl (ix2 (n0 := 128) (i 1) k)) (fun k => Wr (ix2 (n0 := 128) (i 1) k))
    (bl (ix1 (n := 128) (i 1)))

/-- The reciprocal column of a divisor vector. -/
def recipCol (d : SN.Idx → EReal) : SN1.Idx → EReal := fun i => Ideal.div Of (d (ix1 (n := 50000) (i 0)))
/-- A vector as a one-row matrix. -/
def rowOf (b : SF.Idx → EReal) : S1F.Idx → EReal := fun i => b (ix1 (n := 128) (i 1))

theorem layerR_eq_layerK (A : SNF.Idx → EReal) (d : SN.Idx → EReal) (hd : ∀ p, 1 ≤ d p) (x : SNF.Idx → EReal)
    (Wl : SFF.Idx → EReal) (bl : SF.Idx → EReal) (Wr : SFF.Idx → EReal) :
    layerR A d x Wl bl Wr = layerK A (recipCol d) x Wl (rowOf bl) Wr := by
  funext i
  unfold layerR layerK recipCol rowOf
  exact layerEntryDiv_eq _ _ (ne_zero_of_one_le (hd _)) _ _ _

theorem allReal_layerK {A : SNF.Idx → EReal} {d : SN.Idx → EReal} {x : SNF.Idx → EReal} {Wl : SFF.Idx → EReal}
    {bl : SF.Idx → EReal} {Wr : SFF.Idx → EReal} (hA : AllReal A) (hd : ∀ p, 1 ≤ d p) (hx : AllReal x)
    (hWl : AllReal Wl) (hbl : AllReal bl) (hWr : AllReal Wr) : AllReal (layerK A (recipCol d) x Wl (rowOf bl) Wr) :=
  fun i => isReal_layerEntry (fun _ => hA _) (fun _ => hx _) (isReal_recip (hd _)) (fun _ => hWl _) (fun _ => hWr _) (hbl _)

/-! ## The head: a linear map to two classes, then log-softmax -/

/-- One logit. -/
def logitEntry (h w : Fin 128 → EReal) (b : EReal) : EReal := (∑ k : Fin 128, h k * w k) + b

/-- Log-softmax of a row of two logits, the maximum added back to the log-sum before subtracting. -/
def lsmK (l : Fin 2 → EReal) (j : Fin 2) : EReal :=
  l j - (max (l 0) (l 1) + Ideal.log (∑ j' : Fin 2, Ideal.exp (l j' - max (l 0) (l 1))))

/-- Log-softmax of a row of two logits, the maximum subtracted first. -/
def lsmR (l : Fin 2 → EReal) (j : Fin 2) : EReal :=
  l j - max (l 0) (l 1) - Ideal.log (∑ j' : Fin 2, Ideal.exp (l j' - max (l 0) (l 1)))

theorem lsmK_eq_lsmR {l : Fin 2 → EReal} (hl : AllReal l) (j : Fin 2) : lsmK l j = lsmR l j :=
  sub_add_regroup _ _ (isReal_max (hl 0) (hl 1))

/-- The logits of node `p` from the second layer's output. -/
def logitsRow (h : SNF.Idx → EReal) (Wlin : S2F.Idx → EReal) (blin : S2v.Idx → EReal) (p : Fin 50000) : Fin 2 → EReal :=
  fun j => logitEntry (fun k => h (ix2 p k)) (fun k => Wlin (ix2 j k)) (blin (ix1 j))

theorem allReal_logitsRow {h : SNF.Idx → EReal} {Wlin : S2F.Idx → EReal} {blin : S2v.Idx → EReal} (hh : AllReal h)
    (hW : AllReal Wlin) (hb : AllReal blin) (p : Fin 50000) : AllReal (logitsRow h Wlin blin p) :=
  fun j => isReal_add (isReal_sum _ _ fun k _ => isReal_mul (hh _) (hW _)) (hb _)

/-! ## The network, in its two arrangements -/

/-- The network with reciprocal-scaled layers and the first log-softmax arrangement. `agg` is the neighbour
    aggregation (gather the source rows, add them up at the destination rows), `d` the clamped in-degree. -/
def netK (agg : (SNF.Idx → EReal) → SNF.Idx → EReal) (d : SN.Idx → EReal) (x : SNF.Idx → EReal)
    (W1l : SFF.Idx → EReal) (b1l : SF.Idx → EReal) (W1r W2l : SFF.Idx → EReal) (b2l : SF.Idx → EReal)
    (W2r : SFF.Idx → EReal) (Wlin : S2F.Idx → EReal) (blin : S2v.Idx → EReal) : SN2.Idx → EReal :=
  let h1 := layerK (agg x) (recipCol d) x W1l (rowOf b1l) W1r
  let h2 := layerK (agg h1) (recipCol d) h1 W2l (rowOf b2l) W2r
  fun i => lsmK (logitsRow h2 Wlin blin (i 0)) (i 1)

/-- The network with divided layers and the second log-softmax arrangement. -/
def netR (agg : (SNF.Idx → EReal) → SNF.Idx → EReal) (d : SN.Idx → EReal) (x : SNF.Idx → EReal)
    (W1l : SFF.Idx → EReal) (b1l : SF.Idx → EReal) (W1r W2l : SFF.Idx → EReal) (b2l : SF.Idx → EReal)
    (W2r : SFF.Idx → EReal) (Wlin : S2F.Idx → EReal) (blin : S2v.Idx → EReal) : SN2.Idx → EReal :=
  let h1 := layerR (agg x) d x W1l b1l W1r
  let h2 := layerR (agg h1) d h1 W2l b2l W2r
  fun i => lsmR (logitsRow h2 Wlin blin (i 0)) (i 1)

/-- The two arrangements compute the same array when the clamped degree is at least one, the aggregation keeps
    arrays of reals real, and every float input is real. -/
theorem netK_eq_netR (agg : (SNF.Idx → EReal) → SNF.Idx → EReal) (hagg : ∀ h, AllReal h → AllReal (agg h))
    (d : SN.Idx → EReal) (hd : ∀ p, 1 ≤ d p) {x : SNF.Idx → EReal} {W1l : SFF.Idx → EReal} {b1l : SF.Idx → EReal}
    {W1r W2l : SFF.Idx → EReal} {b2l : SF.Idx → EReal} {W2r : SFF.Idx → EReal} {Wlin : S2F.Idx → EReal}
    {blin : S2v.Idx → EReal} (hx : AllReal x) (hW1l : AllReal W1l) (hb1l : AllReal b1l) (hW1r : AllReal W1r)
    (hW2l : AllReal W2l) (hb2l : AllReal b2l) (hW2r : AllReal W2r) (hWlin : AllReal Wlin) (hblin : AllReal blin) :
    netK agg d x W1l b1l W1r W2l b2l W2r Wlin blin = netR agg d x W1l b1l W1r W2l b2l W2r Wlin blin := by
  unfold netK netR
  simp only [layerR_eq_layerK _ d hd]
  have h1 := allReal_layerK (hagg x hx) hd hx hW1l hb1l hW1r
  have h2 := allReal_layerK (hagg _ h1) hd h1 hW2l hb2l hW2r
  funext i
  exact lsmK_eq_lsmR (allReal_logitsRow h2 hWlin hblin _) _

end Cert.Sage

end
-- ==== Proof.RefValue.lean ====
/-
  The reference program, read as the mathematics of the two-layer neighbour-mean network.

  The program computes, per layer, the neighbour sums (gather the source rows, add them up at the destination
  rows), the clamped in-degree (count the edges arriving at a node, at least one), the quotient of the two, two
  contractions against the transposed weight matrices, a bias and a relu; then a linear head and a log-softmax over
  the two classes. Each array the program writes is read here at an index, from the arrays it was computed from at
  the indices they were read at, until only the inputs, the neighbour aggregation and the clamped degree are left.
  The aggregation and the degree are kept as they are computed (a scatter-add of gathered rows; a maximum with one):
  nothing here depends on the edge list beyond the fact that both layers use the same one.
-/
import proofs.«152969_j27470610825589_1_alg».proof.Proof.RefReadP
import proofs.«152969_j27470610825589_1_alg».proof.Proof.Spec

noncomputable section

namespace Cert.Sage.Ref

open Cert.ReferenceIdeal Cert.ReferenceIdeal.Gen Cert.ReferenceIdeal.ReadP Idealize.ShloMosaic Idealize.ShloMosaic.ValueIdx
  Idealize.ShloMosaic.StableHlo
open scoped BigOperators

/-! ## Indices and small facts -/

/-- A rank-2 index is determined by its two coordinates. -/
theorem idx2_eq {n0 n1 : Nat} (j : (⟨2, ![n0, n1]⟩ : Shape).Idx) (a : Fin n0) (b : Fin n1)
    (h0 : (j 0).val = a.val) (h1 : (j 1).val = b.val) : j = ix2 a b := by
  funext d; match d with | ⟨0, _⟩ => exact Fin.ext h0 | ⟨1, _⟩ => exact Fin.ext h1

/-- A rank-1 index is determined by its coordinate. -/
theorem idx1_eq {n : Nat} (j : (⟨1, ![n]⟩ : Shape).Idx) (a : Fin n) (h0 : (j 0).val = a.val) : j = ix1 a := by
  funext d; match d with | ⟨0, _⟩ => exact Fin.ext h0

/-- The float pattern of minus infinity is the least extended real. -/
theorem ofBits_negInf : Ideal.ofBits .f32 0xFF800000#32 = ⊥ := by simp [Ideal.ofBits, Ideal.ieee]

/-- A maximum folded over two columns from a start value. -/
theorem fold_max_fin2 (b : EReal) (g : Fin 2 → EReal) :
    (Finset.univ : Finset (Fin 2)).fold max b g = max (g 0) (max (g 1) b) := by
  rw [show (Finset.univ : Finset (Fin 2)) = {0, 1} from by decide, Finset.fold_insert (by decide), Finset.fold_singleton]

/-- The maximum along the class axis of a two-column array, at row `p`, from the start value `c`. -/
theorem rowmax (y : S50000x2.Idx → EReal) (c : S_.Idx → EReal) (p : Fin 50000) :
    Host.reduce (FloatOps.maximumf (F := Ideal) (φ := .f32)) y c reducesTo_S50000x2_S50000_d1 h_S_ (ix1 p)
      = max (y (ix2 p 0)) (max (y (ix2 p 1)) (c (Shape.Idx.first h_S_))) := by
  have h : Shape.Reduces S50000x2 [1] S50000 := by decide
  rw [Host.reduce_eq_fold_single (FloatOps.maximumf (F := Ideal) (φ := .f32)) y c reducesTo_S50000x2_S50000_d1 h h_S_ (ix1 p)]
  have hl : ∀ k : Fin 2, h.lift (ix1 p) k = ix2 p k := fun k => idx2_eq _ _ _ rfl rfl
  refine (fold_max_fin2 _ (y ∘ h.lift (ix1 p))).trans ?_
  show max (y (h.lift (ix1 p) (0 : Fin 2))) (max (y (h.lift (ix1 p) (1 : Fin 2))) _) = _
  rw [hl 0, hl 1]

/-- A layer of the specification at an index given by its coordinates. -/
theorem layerR_ix2 (A : SNF.Idx → EReal) (d : SN.Idx → EReal) (x : SNF.Idx → EReal) (Wl : SFF.Idx → EReal)
    (bl : SF.Idx → EReal) (Wr : SFF.Idx → EReal) (p : Fin 50000) (q : Fin 128) :
    layerR A d x Wl bl Wr (ix2 p q)
      = layerEntryDiv (fun k => A (ix2 p k)) (fun k => x (ix2 p k)) (d (ix1 p)) (fun k => Wl (ix2 q k))
          (fun k => Wr (ix2 q k)) (bl (ix1 q)) := rfl

/-- The network of the specification at an index given by its coordinates. -/
theorem netR_ix2 (aggF : (SNF.Idx → EReal) → SNF.Idx → EReal) (d : SN.Idx → EReal) (x : SNF.Idx → EReal)
    (W1l : SFF.Idx → EReal) (b1l : SF.Idx → EReal) (W1r W2l : SFF.Idx → EReal) (b2l : SF.Idx → EReal)
    (W2r : SFF.Idx → EReal) (Wlin : S2F.Idx → EReal) (blin : S2v.Idx → EReal) (p : Fin 50000) (j : Fin 2) :
    netR aggF d x W1l b1l W1r W2l b2l W2r Wlin blin (ix2 p j)
      = lsmR (logitsRow (layerR (aggF (layerR (aggF x) d x W1l b1l W1r)) d (layerR (aggF x) d x W1l b1l W1r) W2l b2l W2r)
          Wlin blin p) j := rfl

/-! ## The neighbour aggregation and the clamped degree -/

/-- The neighbour aggregation: the rows of `h` at the edges' sources, added up at the edges' destinations,
    starting from the zero array. -/
def agg (e : (⟨S2x800000, .i32⟩ : BufTy).Contents (Elt Ideal)) (h : SNF.Idx → EReal) : SNF.Idx → EReal :=
  Host.scatterAdd (F := Ideal) (φ := .f32) scatter_S50000x128_S800000x1_S800000x128_1_0_0_1 (val_main_v11 (F := Ideal))
    (val_main_v12 (F := Ideal) e)
    (Host.gather gather_S50000x128_S800000x1_S800000x128_1_0_n_n_0_1_1128 h (val_main_v9 (F := Ideal) e))

/-- The clamped in-degree: the number of edges arriving at a node, or one if there are none. -/
def deg1 (e : (⟨S2x800000, .i32⟩ : BufTy).Contents (Elt Ideal)) : SN.Idx → EReal := val_main_v19 (F := Ideal) e

/-- The clamped degree at an index. -/
theorem deg1_apply (e : (⟨S2x800000, .i32⟩ : BufTy).Contents (Elt Ideal)) (i : S50000.Idx) : val_main_v19 (F := Ideal) e i = deg1 e i := rfl

/-- The first layer aggregates the input. -/
theorem agg_layer1 (x0 : (⟨S50000x128, .f32⟩ : BufTy).Contents (Elt Ideal)) (e : (⟨S2x800000, .i32⟩ : BufTy).Contents (Elt Ideal)) :
    val_main_v13 (F := Ideal) x0 e = agg e x0 := rfl

/-- The second layer's source indices are the first layer's. -/
theorem src_layer2 (e : (⟨S2x800000, .i32⟩ : BufTy).Contents (Elt Ideal)) : val_main_v37 (F := Ideal) e = val_main_v9 (F := Ideal) e := rfl
/-- The second layer's destination indices are the first layer's. -/
theorem dst_layer2 (e : (⟨S2x800000, .i32⟩ : BufTy).Contents (Elt Ideal)) : val_main_v40 (F := Ideal) e = val_main_v12 (F := Ideal) e := rfl
/-- The second layer's zero array is the first layer's. -/
theorem zero_layer2 : val_main_v39 (F := Ideal) = val_main_v11 (F := Ideal) := rfl

/-- The second layer aggregates the first layer's output, in the same way. -/
theorem agg_layer2 (x0 : (⟨S50000x128, .f32⟩ : BufTy).Contents (Elt Ideal)) (e : (⟨S2x800000, .i32⟩ : BufTy).Contents (Elt Ideal))
    (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v41 (F := Ideal) x0 e x2 x3 x4 = agg e (val_main_v31 (F := Ideal) x0 e x2 x3 x4) := by
  unfold val_main_v41 val_main_v38 agg
  rw [zero_layer2, dst_layer2, src_layer2]

/-- The second layer's clamped degree is the first layer's. -/
theorem deg_layer2 (e : (⟨S2x800000, .i32⟩ : BufTy).Contents (Elt Ideal)) : val_main_v47 (F := Ideal) e = deg1 e := rfl

/-- A scatter-add of reals into reals is real: each entry is an entry plus a finite sum of entries. -/
theorem hostScatterAdd_real {s si su : Shape} (d : ScatterDims s si su) {w : Nat} (x : s.Idx → EReal) (idx : IVec si w)
    (upd : su.Idx → EReal) (hx : AllReal x) (hu : AllReal upd) : AllReal (Ideal.hostScatterAdd d x idx upd) := by
  intro i
  unfold Ideal.hostScatterAdd
  exact isReal_add (hx i) (isReal_sum _ _ fun j _ => hu j)

/-- The zero array is an array of reals. -/
theorem zero_real : AllReal (val_main_v11 (F := Ideal)) := by
  intro i
  rw [val_main_v11_apply, val_main_cst_apply]
  exact isReal_Zf

/-- The aggregation of an array of reals is an array of reals. -/
theorem agg_real (e : (⟨S2x800000, .i32⟩ : BufTy).Contents (Elt Ideal)) (h : SNF.Idx → EReal) (hh : AllReal h) : AllReal (agg e h) :=
  hostScatterAdd_real scatter_S50000x128_S800000x1_S800000x128_1_0_0_1 (val_main_v11 (F := Ideal)) (val_main_v12 (F := Ideal) e)
    (Host.gather gather_S50000x128_S800000x1_S800000x128_1_0_n_n_0_1_1128 h (val_main_v9 (F := Ideal) e)) zero_real (fun _ => hh _)

/-- The clamped degree is at least one. -/
theorem one_le_deg1 (e : (⟨S2x800000, .i32⟩ : BufTy).Contents (Elt Ideal)) (p : SN.Idx) : 1 ≤ deg1 e p := by
  unfold deg1
  rw [val_main_v19_apply, val_main_v18_apply, val_main_cst_3_apply, Ideal.maximumf_def, Ideal.ofBits_def]
  exact (Of_eq.symm.le).trans (le_max_right _ _)

/-! ## The first layer -/

/-- The mean over the neighbours, first layer. -/
theorem mean1 (x0 : (⟨S50000x128, .f32⟩ : BufTy).Contents (Elt Ideal)) (e : (⟨S2x800000, .i32⟩ : BufTy).Contents (Elt Ideal)) (p : Fin 50000) (k : Fin 128) :
    val_main_v22 (F := Ideal) x0 e (ix2 p k) = Ideal.div (agg e x0 (ix2 p k)) (deg1 e (ix1 p)) := by
  rw [val_main_v22_apply, val_main_v21_apply, val_main_v20_apply, Ideal.hostDivf_def, agg_layer1,
    show idx_main_v20 (idx_main_v21 (ix2 p k)) = ix1 p from idx1_eq _ _ rfl, deg1_apply]

/-- The transposed left weights, first layer. -/
theorem wlT1 (x2 : (⟨S128x128, .f32⟩ : BufTy).Contents (Elt Ideal)) (k q : Fin 128) : val_main_v23 (F := Ideal) x2 (ix2 k q) = x2 (ix2 q k) := by
  rw [val_main_v23_apply]; exact congrArg x2 (idx2_eq _ _ _ rfl rfl)

/-- The transposed right weights, first layer. -/
theorem wrT1 (x4 : (⟨S128x128, .f32⟩ : BufTy).Contents (Elt Ideal)) (k q : Fin 128) : val_main_v28 (F := Ideal) x4 (ix2 k q) = x4 (ix2 q k) := by
  rw [val_main_v28_apply]; exact congrArg x4 (idx2_eq _ _ _ rfl rfl)

/-- The neighbour contraction, first layer. -/
theorem dotl1 (x0 : (⟨S50000x128, .f32⟩ : BufTy).Contents (Elt Ideal)) (e : (⟨S2x800000, .i32⟩ : BufTy).Contents (Elt Ideal)) (x2 : (⟨S128x128, .f32⟩ : BufTy).Contents (Elt Ideal)) (p : Fin 50000) (q : Fin 128) :
    val_main_v24 (F := Ideal) x0 e x2 (ix2 p q)
      = ∑ k : Fin 128, Ideal.div (agg e x0 (ix2 p k)) (deg1 e (ix1 p)) * x2 (ix2 q k) := by
  rw [val_main_v24_apply]
  refine Finset.sum_congr rfl fun k _ => ?_
  rw [show lidx_main_v24 (ix2 p q) k = ix2 p k from idx2_eq _ _ _ rfl rfl,
    show ridx_main_v24 (ix2 p q) k = ix2 k q from idx2_eq _ _ _ rfl rfl, mean1, wlT1]

/-- The self contraction, first layer. -/
theorem dotr1 (x0 : (⟨S50000x128, .f32⟩ : BufTy).Contents (Elt Ideal)) (x4 : (⟨S128x128, .f32⟩ : BufTy).Contents (Elt Ideal)) (p : Fin 50000) (q : Fin 128) :
    val_main_v29 (F := Ideal) x0 x4 (ix2 p q) = ∑ k : Fin 128, x0 (ix2 p k) * x4 (ix2 q k) := by
  rw [val_main_v29_apply]
  refine Finset.sum_congr rfl fun k _ => ?_
  rw [show lidx_main_v29 (ix2 p q) k = ix2 p k from idx2_eq _ _ _ rfl rfl,
    show ridx_main_v29 (ix2 p q) k = ix2 k q from idx2_eq _ _ _ rfl rfl, wrT1]

/-- The bias row, first layer. -/
theorem bias1 (x3 : (⟨S128, .f32⟩ : BufTy).Contents (Elt Ideal)) (p : Fin 50000) (q : Fin 128) : val_main_v26 (F := Ideal) x3 (ix2 p q) = x3 (ix1 q) := by
  rw [val_main_v26_apply, val_main_v25_apply]; exact congrArg x3 (idx1_eq _ _ rfl)

/-- The relu's zero, first layer. -/
theorem relu0_1 (p : Fin 50000) (q : Fin 128) : val_main_call0_v0 (F := Ideal) (ix2 p q) = Zf := by
  rw [val_main_call0_v0_apply, val_main_call0_cst_apply, Ideal.ofBits_def]

/-- One entry of the first layer. -/
theorem layer1_entry (x0 : (⟨S50000x128, .f32⟩ : BufTy).Contents (Elt Ideal)) (e : (⟨S2x800000, .i32⟩ : BufTy).Contents (Elt Ideal))
    (x2 : (⟨S128x128, .f32⟩ : BufTy).Contents (Elt Ideal)) (x3 : (⟨S128, .f32⟩ : BufTy).Contents (Elt Ideal)) (x4 : (⟨S128x128, .f32⟩ : BufTy).Contents (Elt Ideal)) (p : Fin 50000) (q : Fin 128) :
    val_main_v31 (F := Ideal) x0 e x2 x3 x4 (ix2 p q)
      = layerEntryDiv (fun k => agg e x0 (ix2 p k)) (fun k => x0 (ix2 p k)) (deg1 e (ix1 p)) (fun k => x2 (ix2 q k))
          (fun k => x4 (ix2 q k)) (x3 (ix1 q)) := by
  unfold layerEntryDiv
  rw [val_main_v31_apply, val_main_v30_apply, val_main_v27_apply, dotl1, dotr1, bias1, relu0_1, Ideal.maximumf_def,
    Ideal.addf_def, Ideal.addf_def]

/-- The first layer is the layer of the specification over the aggregated input. -/
theorem layer1 (x0 : (⟨S50000x128, .f32⟩ : BufTy).Contents (Elt Ideal)) (e : (⟨S2x800000, .i32⟩ : BufTy).Contents (Elt Ideal))
    (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v31 (F := Ideal) x0 e x2 x3 x4 = layerR (agg e x0) (deg1 e) x0 x2 x3 x4 := by
  funext i
  obtain ⟨p, q, rfl⟩ : ∃ (p : Fin 50000) (q : Fin 128), i = ix2 p q := ⟨i 0, i 1, eq_ix2 i⟩
  rw [layerR_ix2]
  exact layer1_entry x0 e x2 x3 x4 p q

/-! ## The second layer -/

/-- The mean over the neighbours, second layer. -/
theorem mean2 (x0 : (⟨S50000x128, .f32⟩ : BufTy).Contents (Elt Ideal)) (e : (⟨S2x800000, .i32⟩ : BufTy).Contents (Elt Ideal))
    (x2 : (⟨S128x128, .f32⟩ : BufTy).Contents (Elt Ideal)) (x3 : (⟨S128, .f32⟩ : BufTy).Contents (Elt Ideal)) (x4 : (⟨S128x128, .f32⟩ : BufTy).Contents (Elt Ideal)) (p : Fin 50000) (k : Fin 128) :
    val_main_v50 (F := Ideal) x0 e x2 x3 x4 (ix2 p k) = Ideal.div (agg e (val_main_v31 (F := Ideal) x0 e x2 x3 x4) (ix2 p k)) (deg1 e (ix1 p)) := by
  rw [val_main_v50_apply, val_main_v49_apply, val_main_v48_apply, Ideal.hostDivf_def, agg_layer2, deg_layer2,
    show idx_main_v48 (idx_main_v49 (ix2 p k)) = ix1 p from idx1_eq _ _ rfl]

/-- The transposed left weights, second layer. -/
theorem wlT2 (x5 : (⟨S128x128, .f32⟩ : BufTy).Contents (Elt Ideal)) (k q : Fin 128) : val_main_v51 (F := Ideal) x5 (ix2 k q) = x5 (ix2 q k) := by
  rw [val_main_v51_apply]; exact congrArg x5 (idx2_eq _ _ _ rfl rfl)

/-- The transposed right weights, second layer. -/
theorem wrT2 (x7 : (⟨S128x128, .f32⟩ : BufTy).Contents (Elt Ideal)) (k q : Fin 128) : val_main_v56 (F := Ideal) x7 (ix2 k q) = x7 (ix2 q k) := by
  rw [val_main_v56_apply]; exact congrArg x7 (idx2_eq _ _ _ rfl rfl)

/-- The neighbour contraction, second layer. -/
theorem dotl2 (x0 : (⟨S50000x128, .f32⟩ : BufTy).Contents (Elt Ideal)) (e : (⟨S2x800000, .i32⟩ : BufTy).Contents (Elt Ideal))
    (x2 : (⟨S128x128, .f32⟩ : BufTy).Contents (Elt Ideal)) (x3 : (⟨S128, .f32⟩ : BufTy).Contents (Elt Ideal)) (x4 : (⟨S128x128, .f32⟩ : BufTy).Contents (Elt Ideal))
    (x5 : (⟨S128x128, .f32⟩ : BufTy).Contents (Elt Ideal)) (p : Fin 50000) (q : Fin 128) :
    val_main_v52 (F := Ideal) x0 e x2 x3 x4 x5 (ix2 p q)
      = ∑ k : Fin 128, Ideal.div (agg e (val_main_v31 (F := Ideal) x0 e x2 x3 x4) (ix2 p k)) (deg1 e (ix1 p)) * x5 (ix2 q k) := by
  rw [val_main_v52_apply]
  refine Finset.sum_congr rfl fun k _ => ?_
  rw [show lidx_main_v52 (ix2 p q) k = ix2 p k from idx2_eq _ _ _ rfl rfl,
    show ridx_main_v52 (ix2 p q) k = ix2 k q from idx2_eq _ _ _ rfl rfl, mean2, wlT2]

/-- The self contraction, second layer. -/
theorem dotr2 (x0 : (⟨S50000x128, .f32⟩ : BufTy).Contents (Elt Ideal)) (e : (⟨S2x800000, .i32⟩ : BufTy).Contents (Elt Ideal))
    (x2 : (⟨S128x128, .f32⟩ : BufTy).Contents (Elt Ideal)) (x3 : (⟨S128, .f32⟩ : BufTy).Contents (Elt Ideal)) (x4 : (⟨S128x128, .f32⟩ : BufTy).Contents (Elt Ideal))
    (x7 : (⟨S128x128, .f32⟩ : BufTy).Contents (Elt Ideal)) (p : Fin 50000) (q : Fin 128) :
    val_main_v57 (F := Ideal) x0 e x2 x3 x4 x7 (ix2 p q) = ∑ k : Fin 128, val_main_v31 (F := Ideal) x0 e x2 x3 x4 (ix2 p k) * x7 (ix2 q k) := by
  rw [val_main_v57_apply]
  refine Finset.sum_congr rfl fun k _ => ?_
  rw [show lidx_main_v57 (ix2 p q) k = ix2 p k from idx2_eq _ _ _ rfl rfl,
    show ridx_main_v57 (ix2 p q) k = ix2 k q from idx2_eq _ _ _ rfl rfl, wrT2]

/-- The bias row, second layer. -/
theorem bias2 (x6 : (⟨S128, .f32⟩ : BufTy).Contents (Elt Ideal)) (p : Fin 50000) (q : Fin 128) : val_main_v54 (F := Ideal) x6 (ix2 p q) = x6 (ix1 q) := by
  rw [val_main_v54_apply, val_main_v53_apply]; exact congrArg x6 (idx1_eq _ _ rfl)

/-- The relu's zero, second layer. -/
theorem relu0_2 (p : Fin 50000) (q : Fin 128) : val_main_call1_v0 (F := Ideal) (ix2 p q) = Zf := by
  rw [val_main_call1_v0_apply, val_main_call1_cst_apply, Ideal.ofBits_def]

/-- One entry of the second layer, over the first layer's output. -/
theorem layer2_entry (x0 : (⟨S50000x128, .f32⟩ : BufTy).Contents (Elt Ideal)) (e : (⟨S2x800000, .i32⟩ : BufTy).Contents (Elt Ideal))
    (x2 : (⟨S128x128, .f32⟩ : BufTy).Contents (Elt Ideal)) (x3 : (⟨S128, .f32⟩ : BufTy).Contents (Elt Ideal)) (x4 : (⟨S128x128, .f32⟩ : BufTy).Contents (Elt Ideal))
    (x5 : (⟨S128x128, .f32⟩ : BufTy).Contents (Elt Ideal)) (x6 : (⟨S128, .f32⟩ : BufTy).Contents (Elt Ideal)) (x7 : (⟨S128x128, .f32⟩ : BufTy).Contents (Elt Ideal)) (p : Fin 50000) (q : Fin 128) :
    val_main_v59 (F := Ideal) x0 e x2 x3 x4 x5 x6 x7 (ix2 p q)
      = layerEntryDiv (fun k => agg e (val_main_v31 (F := Ideal) x0 e x2 x3 x4) (ix2 p k)) (fun k => val_main_v31 (F := Ideal) x0 e x2 x3 x4 (ix2 p k)) (deg1 e (ix1 p))
          (fun k => x5 (ix2 q k)) (fun k => x7 (ix2 q k)) (x6 (ix1 q)) := by
  unfold layerEntryDiv
  rw [val_main_v59_apply, val_main_v58_apply, val_main_v55_apply, dotl2, dotr2, bias2, relu0_2, Ideal.maximumf_def,
    Ideal.addf_def, Ideal.addf_def]

/-- The second layer is the layer of the specification over the aggregated output of the first. -/
theorem layer2 (x0 : (⟨S50000x128, .f32⟩ : BufTy).Contents (Elt Ideal)) (e : (⟨S2x800000, .i32⟩ : BufTy).Contents (Elt Ideal))
    (x2 : (⟨S128x128, .f32⟩ : BufTy).Contents (Elt Ideal)) (x3 : (⟨S128, .f32⟩ : BufTy).Contents (Elt Ideal)) (x4 : (⟨S128x128, .f32⟩ : BufTy).Contents (Elt Ideal))
    (x5 : (⟨S128x128, .f32⟩ : BufTy).Contents (Elt Ideal)) (x6 : (⟨S128, .f32⟩ : BufTy).Contents (Elt Ideal)) (x7 : (⟨S128x128, .f32⟩ : BufTy).Contents (Elt Ideal)) :
    val_main_v59 (F := Ideal) x0 e x2 x3 x4 x5 x6 x7 = layerR (agg e (val_main_v31 (F := Ideal) x0 e x2 x3 x4)) (deg1 e) (val_main_v31 (F := Ideal) x0 e x2 x3 x4) x5 x6 x7 := by
  funext i
  obtain ⟨p, q, rfl⟩ : ∃ (p : Fin 50000) (q : Fin 128), i = ix2 p q := ⟨i 0, i 1, eq_ix2 i⟩
  rw [layerR_ix2]
  exact layer2_entry x0 e x2 x3 x4 x5 x6 x7 p q

/-! ## The head -/

/-- The transposed head weights. -/
theorem wlinT (x8 : (⟨S2x128, .f32⟩ : BufTy).Contents (Elt Ideal)) (k : Fin 128) (j : Fin 2) : val_main_v60 (F := Ideal) x8 (ix2 k j) = x8 (ix2 j k) := by
  rw [val_main_v60_apply]; exact congrArg x8 (idx2_eq _ _ _ rfl rfl)

/-- The head's bias row. -/
theorem blin_row (x9 : (⟨S2, .f32⟩ : BufTy).Contents (Elt Ideal)) (p : Fin 50000) (j : Fin 2) : val_main_v63 (F := Ideal) x9 (ix2 p j) = x9 (ix1 j) := by
  rw [val_main_v63_apply, val_main_v62_apply]; exact congrArg x9 (idx1_eq _ _ rfl)

/-- The logits of node `p` are the logits row of the specification over the second layer's output. -/
theorem logits_entry (x0 : (⟨S50000x128, .f32⟩ : BufTy).Contents (Elt Ideal)) (e : (⟨S2x800000, .i32⟩ : BufTy).Contents (Elt Ideal))
    (x2 : (⟨S128x128, .f32⟩ : BufTy).Contents (Elt Ideal)) (x3 : (⟨S128, .f32⟩ : BufTy).Contents (Elt Ideal)) (x4 : (⟨S128x128, .f32⟩ : BufTy).Contents (Elt Ideal))
    (x5 : (⟨S128x128, .f32⟩ : BufTy).Contents (Elt Ideal)) (x6 : (⟨S128, .f32⟩ : BufTy).Contents (Elt Ideal)) (x7 : (⟨S128x128, .f32⟩ : BufTy).Contents (Elt Ideal))
    (x8 : (⟨S2x128, .f32⟩ : BufTy).Contents (Elt Ideal)) (x9 : (⟨S2, .f32⟩ : BufTy).Contents (Elt Ideal)) (p : Fin 50000) (j : Fin 2) :
    val_main_v64 (F := Ideal) x0 e x2 x3 x4 x5 x6 x7 x8 x9 (ix2 p j) = logitsRow (val_main_v59 (F := Ideal) x0 e x2 x3 x4 x5 x6 x7) x8 x9 p j := by
  unfold logitsRow logitEntry
  rw [val_main_v64_apply, val_main_v61_apply, blin_row, Ideal.addf_def]
  refine congrArg (· + x9 (ix1 j)) (Finset.sum_congr rfl fun k _ => ?_)
  rw [show lidx_main_v61 (ix2 p j) k = ix2 p k from idx2_eq _ _ _ rfl rfl,
    show ridx_main_v61 (ix2 p j) k = ix2 k j from idx2_eq _ _ _ rfl rfl, wlinT]

/-! ## The log-softmax -/

/-- The row maximum the log-softmax subtracts: the larger of the two logits. -/
theorem lsm_max (x0 : (⟨S50000x128, .f32⟩ : BufTy).Contents (Elt Ideal)) (e : (⟨S2x800000, .i32⟩ : BufTy).Contents (Elt Ideal))
    (x2 : (⟨S128x128, .f32⟩ : BufTy).Contents (Elt Ideal)) (x3 : (⟨S128, .f32⟩ : BufTy).Contents (Elt Ideal)) (x4 : (⟨S128x128, .f32⟩ : BufTy).Contents (Elt Ideal))
    (x5 : (⟨S128x128, .f32⟩ : BufTy).Contents (Elt Ideal)) (x6 : (⟨S128, .f32⟩ : BufTy).Contents (Elt Ideal)) (x7 : (⟨S128x128, .f32⟩ : BufTy).Contents (Elt Ideal))
    (x8 : (⟨S2x128, .f32⟩ : BufTy).Contents (Elt Ideal)) (x9 : (⟨S2, .f32⟩ : BufTy).Contents (Elt Ideal)) (p : Fin 50000) :
    val_main_call2_v2 (F := Ideal) x0 e x2 x3 x4 x5 x6 x7 x8 x9 (ix1 p)
      = max (val_main_v64 (F := Ideal) x0 e x2 x3 x4 x5 x6 x7 x8 x9 (ix2 p 0)) (val_main_v64 (F := Ideal) x0 e x2 x3 x4 x5 x6 x7 x8 x9 (ix2 p 1)) := by
  rw [val_main_call2_v2_apply, val_main_call2_v1_apply, val_main_call2_cst_0_apply, Ideal.maximumf_def, Ideal.ofBits_def,
    ofBits_negInf, max_bot_left]
  unfold val_main_call2_v0
  rw [rowmax, val_main_call2_cst_apply, Ideal.ofBits_def, ofBits_negInf, max_bot_right]

/-- A logit less the row maximum. -/
theorem lsm_shift (x0 : (⟨S50000x128, .f32⟩ : BufTy).Contents (Elt Ideal)) (e : (⟨S2x800000, .i32⟩ : BufTy).Contents (Elt Ideal))
    (x2 : (⟨S128x128, .f32⟩ : BufTy).Contents (Elt Ideal)) (x3 : (⟨S128, .f32⟩ : BufTy).Contents (Elt Ideal)) (x4 : (⟨S128x128, .f32⟩ : BufTy).Contents (Elt Ideal))
    (x5 : (⟨S128x128, .f32⟩ : BufTy).Contents (Elt Ideal)) (x6 : (⟨S128, .f32⟩ : BufTy).Contents (Elt Ideal)) (x7 : (⟨S128x128, .f32⟩ : BufTy).Contents (Elt Ideal))
    (x8 : (⟨S2x128, .f32⟩ : BufTy).Contents (Elt Ideal)) (x9 : (⟨S2, .f32⟩ : BufTy).Contents (Elt Ideal)) (p : Fin 50000) (j : Fin 2) :
    val_main_call2_v5 (F := Ideal) x0 e x2 x3 x4 x5 x6 x7 x8 x9 (ix2 p j)
      = val_main_v64 (F := Ideal) x0 e x2 x3 x4 x5 x6 x7 x8 x9 (ix2 p j)
        - max (val_main_v64 (F := Ideal) x0 e x2 x3 x4 x5 x6 x7 x8 x9 (ix2 p 0)) (val_main_v64 (F := Ideal) x0 e x2 x3 x4 x5 x6 x7 x8 x9 (ix2 p 1)) := by
  rw [val_main_call2_v5_apply, val_main_call2_v4_apply, val_main_call2_v3_apply, Ideal.subf_def,
    show idx_main_call2_v3 (idx_main_call2_v4 (ix2 p j)) = ix1 p from idx1_eq _ _ rfl, lsm_max]

/-- The sum of the exponentials of the shifted logits. -/
theorem lsm_sum (x0 : (⟨S50000x128, .f32⟩ : BufTy).Contents (Elt Ideal)) (e : (⟨S2x800000, .i32⟩ : BufTy).Contents (Elt Ideal))
    (x2 : (⟨S128x128, .f32⟩ : BufTy).Contents (Elt Ideal)) (x3 : (⟨S128, .f32⟩ : BufTy).Contents (Elt Ideal)) (x4 : (⟨S128x128, .f32⟩ : BufTy).Contents (Elt Ideal))
    (x5 : (⟨S128x128, .f32⟩ : BufTy).Contents (Elt Ideal)) (x6 : (⟨S128, .f32⟩ : BufTy).Contents (Elt Ideal)) (x7 : (⟨S128x128, .f32⟩ : BufTy).Contents (Elt Ideal))
    (x8 : (⟨S2x128, .f32⟩ : BufTy).Contents (Elt Ideal)) (x9 : (⟨S2, .f32⟩ : BufTy).Contents (Elt Ideal)) (p : Fin 50000) :
    val_main_call2_v7 (F := Ideal) x0 e x2 x3 x4 x5 x6 x7 x8 x9 (ix1 p)
      = ∑ j' : Fin 2, Ideal.exp (val_main_v64 (F := Ideal) x0 e x2 x3 x4 x5 x6 x7 x8 x9 (ix2 p j')
          - max (val_main_v64 (F := Ideal) x0 e x2 x3 x4 x5 x6 x7 x8 x9 (ix2 p 0)) (val_main_v64 (F := Ideal) x0 e x2 x3 x4 x5 x6 x7 x8 x9 (ix2 p 1))) := by
  rw [val_main_call2_v7_apply, val_main_call2_cst_1_apply, Ideal.ofBits_def, Ideal.ofBits_zero_f32, zero_add]
  refine Finset.sum_congr rfl fun k _ => ?_
  rw [show idx_main_call2_v7 (ix1 p) k = ix2 p k from idx2_eq _ _ _ rfl rfl, val_main_call2_v6_apply,
    Ideal.hostUnary_exp_def, lsm_shift]

/-- One entry of the output: the log-softmax of the specification over the row of logits. -/
theorem lsm_entry (x0 : (⟨S50000x128, .f32⟩ : BufTy).Contents (Elt Ideal)) (e : (⟨S2x800000, .i32⟩ : BufTy).Contents (Elt Ideal))
    (x2 : (⟨S128x128, .f32⟩ : BufTy).Contents (Elt Ideal)) (x3 : (⟨S128, .f32⟩ : BufTy).Contents (Elt Ideal)) (x4 : (⟨S128x128, .f32⟩ : BufTy).Contents (Elt Ideal))
    (x5 : (⟨S128x128, .f32⟩ : BufTy).Contents (Elt Ideal)) (x6 : (⟨S128, .f32⟩ : BufTy).Contents (Elt Ideal)) (x7 : (⟨S128x128, .f32⟩ : BufTy).Contents (Elt Ideal))
    (x8 : (⟨S2x128, .f32⟩ : BufTy).Contents (Elt Ideal)) (x9 : (⟨S2, .f32⟩ : BufTy).Contents (Elt Ideal)) (p : Fin 50000) (j : Fin 2) :
    val_main_v65 (F := Ideal) x0 e x2 x3 x4 x5 x6 x7 x8 x9 (ix2 p j) = lsmR (fun j' => val_main_v64 (F := Ideal) x0 e x2 x3 x4 x5 x6 x7 x8 x9 (ix2 p j')) j := by
  unfold lsmR
  rw [val_main_v65_apply, val_main_call2_v10_apply, val_main_call2_v9_apply, val_main_call2_v8_apply, Ideal.subf_def,
    Ideal.hostUnary_log_def, show idx_main_call2_v8 (idx_main_call2_v10 (ix2 p j)) = ix1 p from idx1_eq _ _ rfl,
    lsm_shift, lsm_sum]

/-! ## The whole program -/

/-- The reference program computes the network of the specification, in its divided arrangement, over its own
    neighbour aggregation and clamped degree. -/
theorem value_eq (x0 : (⟨S50000x128, .f32⟩ : BufTy).Contents (Elt Ideal)) (e : (⟨S2x800000, .i32⟩ : BufTy).Contents (Elt Ideal))
    (x2 : (⟨S128x128, .f32⟩ : BufTy).Contents (Elt Ideal)) (x3 : (⟨S128, .f32⟩ : BufTy).Contents (Elt Ideal)) (x4 : (⟨S128x128, .f32⟩ : BufTy).Contents (Elt Ideal))
    (x5 : (⟨S128x128, .f32⟩ : BufTy).Contents (Elt Ideal)) (x6 : (⟨S128, .f32⟩ : BufTy).Contents (Elt Ideal)) (x7 : (⟨S128x128, .f32⟩ : BufTy).Contents (Elt Ideal))
    (x8 : (⟨S2x128, .f32⟩ : BufTy).Contents (Elt Ideal)) (x9 : (⟨S2, .f32⟩ : BufTy).Contents (Elt Ideal)) :
    val_main_v65 (F := Ideal) x0 e x2 x3 x4 x5 x6 x7 x8 x9 = netR (agg e) (deg1 e) x0 x2 x3 x4 x5 x6 x7 x8 x9 := by
  funext i
  obtain ⟨p, j, rfl⟩ : ∃ (p : Fin 50000) (j : Fin 2), i = ix2 p j := ⟨i 0, i 1, eq_ix2 i⟩
  rw [netR_ix2, ← layer1 x0 e x2 x3 x4, ← layer2 x0 e x2 x3 x4 x5 x6 x7, lsm_entry]
  exact congrArg (fun l => lsmR l j) (funext fun j' => logits_entry x0 e x2 x3 x4 x5 x6 x7 x8 x9 p j')

end Cert.Sage.Ref

end
-- ==== Proof.KernelRun.lean ====
/-
  The idealized kernel program run to its end, with its result named.

  @main is four segments: the host operations up to the first launch, the first pipelined region (one layer of the
  network on 10 blocks of 5000 nodes), the host operations between the launches (the second neighbour aggregation),
  and the second region (the second layer, the classifier and the log-softmax). The contents of every buffer at each
  segment boundary are a fold from the launch memory; after the last segment every buffer that outlives the launches
  holds the last boundary's contents. Read at the result buffer this names the program's result: it is the array the
  second region's write-backs leave, `(dat1 …).arrAt 8 N`. The arguments end as launched.
-/
import proofs.«152969_j27470610825589_1_alg».proof.Proof.Gen.KernelIdeal.Frame

set_option maxRecDepth 16384

noncomputable section

namespace Cert.Sage.Kern

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last segment
    boundary's contents and the arguments end as launched. -/
theorem run_value : θ_run defs (onTc (τ := τ) (main (F := F))) ⟨m, fun _ => 0, ρ⟩ (fun r => ∀ c : Dev nD,
      r.2.mem ((c.tc : Thread nD τ).loc main_v37) = W4 m ρ c (Proc.devRef .tc main_v37)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v37 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

/-- The last boundary's contents at the result buffer: what the second region's write-backs leave of its output. -/
theorem W4_result (c : Dev nD) :
    W4 m ρ c (Proc.devRef .tc main_v37) = (dat1 (V3 m ρ) c).arrAt 8 cfg1.N := W4_arr m ρ c 8

end Cert.Sage.Kern

end
-- ==== Proof.HostStretch.lean ====
/-
  What the host operations around the two launches leave in the arrays the regions read.

  Before the first launch @main cuts the edge list into its source row and its destination row, counts each node's
  incoming edges by adding ones at the destinations (the in-degree), clamps the count below by one and takes the
  reciprocal as a column, gathers the source nodes' feature rows and adds them up at the destinations (the neighbour
  sums), and turns the bias vector into a row. Between the launches it does the same gather-and-add on the first
  layer's output. Every one of these arrays is the same fixed expression of the arguments (and, between the launches,
  of the first region's output), read off the list of operations with nothing evaluated.
-/
import proofs.«152969_j27470610825589_1_alg».proof.Proof.Gen.KernelIdeal.Frame
import proofs.«152969_j27470610825589_1_alg».proof.Proof.Spec
import Idealize.ShloMosaic.Lib.ValueLayout
import Idealize.ShloMosaic.Lib.StableHlo.Run

set_option maxRecDepth 16384

noncomputable section

namespace Cert.Sage.Kern

open Cert.KernelIdeal Cert.KernelIdeal.Gen Idealize.ShloMosaic Idealize.ShloMosaic.TcCoe Idealize.ShloMosaic.ValueIdx
open Idealize.SL.Sem Idealize.ShloMosaic.StableHlo

/-- The edge list's source row and destination row. -/
def srcRow (e : (⟨S2x800000, .i32⟩ : BufTy).Contents (Elt Ideal)) : (⟨S800000, .i32⟩ : BufTy).Contents (Elt Ideal) :=
  shapeCast _ (extractStridedSlice S1x800000 ![0, 0] e slices_S2x800000_S1x800000_0_0) shapeCasts_S1x800000_S800000
def dstRow (e : (⟨S2x800000, .i32⟩ : BufTy).Contents (Elt Ideal)) : (⟨S800000, .i32⟩ : BufTy).Contents (Elt Ideal) :=
  shapeCast _ (extractStridedSlice S1x800000 ![1, 0] e slices_S2x800000_S1x800000_1_0) shapeCasts_S1x800000_S800000

/-- The neighbour aggregation: gather the source nodes' rows (a negative index wrapped by the node count), add them
    up at the destination nodes, from zero. -/
def aggK (e : (⟨S2x800000, .i32⟩ : BufTy).Contents (Elt Ideal)) (h : (⟨S50000x128, .f32⟩ : BufTy).Contents (Elt Ideal)) :
    (⟨S50000x128, .f32⟩ : BufTy).Contents (Elt Ideal) :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 (dstRow e))
    (Host.gather gather_S50000x128_S800000x1_S800000x128_1_0_n_n_0_1_1128 h
      (broadcastInDim S800000x1 ![0] bcast_S800000_S800000x1_0
        (select (cmpi .slt (srcRow e) (broadcastInDim S800000 ![] bcast_S_S800000 (constantI S_ 32 0#32)))
          (addi (srcRow e) (broadcastInDim S800000 ![] bcast_S_S800000 (constantI S_ 32 50000#32))) (srcRow e))))

/-- The in-degree (ones added up at the destination nodes, from zero) clamped below by one. -/
def degK (e : (⟨S2x800000, .i32⟩ : BufTy).Contents (Elt Ideal)) : (⟨S50000, .f32⟩ : BufTy).Contents (Elt Ideal) :=
  maximumf
    (Host.scatterAdd scatter_S50000_S800000x1_S800000_n_0_0_1
      (broadcastInDim S50000 ![] bcast_S_S50000 (constant (F := Ideal) S_ .f32 0x00000000#32))
      (broadcastInDim S800000x1 ![0] bcast_S800000_S800000x1_0 (dstRow e))
      (broadcastInDim S800000 ![] bcast_S_S800000 (constant (F := Ideal) S_ .f32 0x3F800000#32)))
    (broadcastInDim S50000 ![] bcast_S_S50000 (constant (F := Ideal) S_ .f32 0x3F800000#32))

/-- The reciprocal of the clamped in-degree, as a column. -/
def invK (e : (⟨S2x800000, .i32⟩ : BufTy).Contents (Elt Ideal)) : (⟨S50000x1, .f32⟩ : BufTy).Contents (Elt Ideal) :=
  shapeCast S50000x1 (Host.divf (broadcastInDim S50000 ![] bcast_S_S50000 (constant (F := Ideal) S_ .f32 0x3F800000#32)) (degK e))
    shapeCasts_S50000_S50000x1

variable (m : (ℓ : Loc nD τ sig) → Buf (Elt Ideal) ℓ) (ρ : Dev nD → PrngReg)

/-! ## The first region's entry -/

theorem V1_src (c : Dev nD) : W1 m ρ c (Proc.devRef .tc main_v1) = srcRow (m ((c : Thread nD τ).loc main_arg1)) := by
  show StableHlo.after hostOps0 (W0 m ρ c) (Proc.devRef .tc main_v1) = _
  unfold srcRow
  after_results_simp
  rfl

theorem V1_dst (c : Dev nD) : W1 m ρ c (Proc.devRef .tc main_v3) = dstRow (m ((c : Thread nD τ).loc main_arg1)) := by
  show StableHlo.after hostOps0 (W0 m ρ c) (Proc.devRef .tc main_v3) = _
  unfold dstRow
  after_results_simp
  rfl

theorem V1_agg (c : Dev nD) :
    V1 m ρ c main_v22 = aggK (m ((c : Thread nD τ).loc main_arg1)) (m ((c : Thread nD τ).loc main_arg0)) := by
  show StableHlo.after hostOps0 (W0 m ρ c) (Proc.devRef .tc main_v22) = _
  unfold aggK srcRow dstRow
  after_results_simp
  rfl

theorem V1_inv (c : Dev nD) : V1 m ρ c main_v12 = invK (m ((c : Thread nD τ).loc main_arg1)) := by
  show StableHlo.after hostOps0 (W0 m ρ c) (Proc.devRef .tc main_v12) = _
  unfold invK degK dstRow
  after_results_simp
  rfl

theorem V1_bias (c : Dev nD) :
    V1 m ρ c main_v23 = shapeCast S1x128 (m ((c : Thread nD τ).loc main_arg3)) shapeCasts_S128_S1x128 := by
  show StableHlo.after hostOps0 (W0 m ρ c) (Proc.devRef .tc main_v23) = _
  after_results_simp
  rfl

theorem V1_arg0 (c : Dev nD) : V1 m ρ c main_arg0 = m ((c : Thread nD τ).loc main_arg0) := by
  show StableHlo.after hostOps0 (W0 m ρ c) (Proc.devRef .tc main_arg0) = _
  after_results_simp
theorem V1_arg2 (c : Dev nD) : V1 m ρ c main_arg2 = m ((c : Thread nD τ).loc main_arg2) := by
  show StableHlo.after hostOps0 (W0 m ρ c) (Proc.devRef .tc main_arg2) = _
  after_results_simp
theorem V1_arg4 (c : Dev nD) : V1 m ρ c main_arg4 = m ((c : Thread nD τ).loc main_arg4) := by
  show StableHlo.after hostOps0 (W0 m ρ c) (Proc.devRef .tc main_arg4) = _
  after_results_simp

/-! ## The second region's entry -/

/-- Between the launches the first region's output array is what that region's write-backs leave of it. -/
theorem W2_out0 (c : Dev nD) : W2 m ρ c (Proc.devRef .tc main_v24) = (dat0 (V1 m ρ) c).arrAt 6 cfg0.N := W2_arr m ρ c 6

/-- The reciprocal-degree column is an input of the first region: the region leaves it as it found it. -/
theorem W2_inv (c : Dev nD) : W2 m ρ c (Proc.devRef .tc main_v12) = V1 m ρ c main_v12 :=
  (W2_arr m ρ c 1).trans (((dat0 (V1 m ρ) c).arrAt_in 1 rfl _).trans (A_eq0 (V1 m ρ) c 1))

/-- An argument no host operation writes and the first region does not stage holds its launch contents between the
    launches. -/
theorem W2_arg5 (c : Dev nD) : W2 m ρ c (Proc.devRef .tc main_arg5) = m ((c : Thread nD τ).loc main_arg5) := by
  rw [W2_of_ne m ρ c main_arg5 (by decide)]
  show StableHlo.after hostOps0 (W0 m ρ c) (Proc.devRef .tc main_arg5) = _
  after_results_simp
theorem W2_arg6 (c : Dev nD) : W2 m ρ c (Proc.devRef .tc main_arg6) = m ((c : Thread nD τ).loc main_arg6) := by
  rw [W2_of_ne m ρ c main_arg6 (by decide)]
  show StableHlo.after hostOps0 (W0 m ρ c) (Proc.devRef .tc main_arg6) = _
  after_results_simp
theorem W2_arg7 (c : Dev nD) : W2 m ρ c (Proc.devRef .tc main_arg7) = m ((c : Thread nD τ).loc main_arg7) := by
  rw [W2_of_ne m ρ c main_arg7 (by decide)]
  show StableHlo.after hostOps0 (W0 m ρ c) (Proc.devRef .tc main_arg7) = _
  after_results_simp
theorem W2_arg8 (c : Dev nD) : W2 m ρ c (Proc.devRef .tc main_arg8) = m ((c : Thread nD τ).loc main_arg8) := by
  rw [W2_of_ne m ρ c main_arg8 (by decide)]
  show StableHlo.after hostOps0 (W0 m ρ c) (Proc.devRef .tc main_arg8) = _
  after_results_simp
theorem W2_arg9 (c : Dev nD) : W2 m ρ c (Proc.devRef .tc main_arg9) = m ((c : Thread nD τ).loc main_arg9) := by
  rw [W2_of_ne m ρ c main_arg9 (by decide)]
  show StableHlo.after hostOps0 (W0 m ρ c) (Proc.devRef .tc main_arg9) = _
  after_results_simp

theorem V3_h (c : Dev nD) : V3 m ρ c main_v24 = (dat0 (V1 m ρ) c).arrAt 6 cfg0.N := by
  refine Eq.trans ?_ (W2_out0 m ρ c)
  show StableHlo.after hostOps1 (W2 m ρ c) (Proc.devRef .tc main_v24) = _
  after_results_simp

theorem V3_agg (c : Dev nD) :
    V3 m ρ c main_v34 = aggK (m ((c : Thread nD τ).loc main_arg1)) (W2 m ρ c (Proc.devRef .tc main_v24)) := by
  show StableHlo.after hostOps1 (W2 m ρ c) (Proc.devRef .tc main_v34) = _
  unfold aggK
  rw [← V1_src m ρ c, ← V1_dst m ρ c, ← W2_of_ne m ρ c main_v1 (by decide), ← W2_of_ne m ρ c main_v3 (by decide)]
  after_results_simp

theorem V3_inv (c : Dev nD) : V3 m ρ c main_v12 = invK (m ((c : Thread nD τ).loc main_arg1)) := by
  refine Eq.trans ?_ (V1_inv m ρ c)
  refine Eq.trans ?_ (W2_inv m ρ c)
  show StableHlo.after hostOps1 (W2 m ρ c) (Proc.devRef .tc main_v12) = _
  after_results_simp

theorem V3_bias (c : Dev nD) :
    V3 m ρ c main_v35 = shapeCast S1x128 (m ((c : Thread nD τ).loc main_arg6)) shapeCasts_S128_S1x128 := by
  rw [← W2_arg6 m ρ c]
  show StableHlo.after hostOps1 (W2 m ρ c) (Proc.devRef .tc main_v35) = _
  after_results_simp
  rfl

theorem V3_blin (c : Dev nD) :
    V3 m ρ c main_v36 = shapeCast S1x2 (m ((c : Thread nD τ).loc main_arg9)) shapeCasts_S2_S1x2 := by
  rw [← W2_arg9 m ρ c]
  show StableHlo.after hostOps1 (W2 m ρ c) (Proc.devRef .tc main_v36) = _
  after_results_simp
  rfl

theorem V3_arg5 (c : Dev nD) : V3 m ρ c main_arg5 = m ((c : Thread nD τ).loc main_arg5) := by
  refine Eq.trans ?_ (W2_arg5 m ρ c)
  show StableHlo.after hostOps1 (W2 m ρ c) (Proc.devRef .tc main_arg5) = _
  after_results_simp
theorem V3_arg7 (c : Dev nD) : V3 m ρ c main_arg7 = m ((c : Thread nD τ).loc main_arg7) := by
  refine Eq.trans ?_ (W2_arg7 m ρ c)
  show StableHlo.after hostOps1 (W2 m ρ c) (Proc.devRef .tc main_arg7) = _
  after_results_simp
theorem V3_arg8 (c : Dev nD) : V3 m ρ c main_arg8 = m ((c : Thread nD τ).loc main_arg8) := by
  refine Eq.trans ?_ (W2_arg8 m ρ c)
  show StableHlo.after hostOps1 (W2 m ρ c) (Proc.devRef .tc main_arg8) = _
  after_results_simp

end Cert.Sage.Kern

end
-- ==== Proof.LibPlainMatmul.lean ====
/-
  The product of an m × k matrix by a k × n matrix, accumulated into zero, read at an entry.

  The matrix unit's product with the left operand contracted on its second axis and the right on its first, started
  from an accumulator of zeros, has at entry (a, b) the sum over the k contracted coordinates c of A(a, c) · B(c, b).
  The general statement sums over the indices of a one-axis "contraction shape"; that index set is carried onto the
  k coordinates, and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- `A · B` into a zero accumulator, at the exact extended reals, read at `(a, b)`: `∑ c, A (a, c) * B (c, b)`. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.LibColumnBroadcast.lean ====
/-
  One column broadcast over many.

  An [a, 1] matrix broadcast to [a, b] repeats its one column: entry (p, c) of the result is entry (p, 0) of the
  operand, whatever the column c. (The companion form for one ROW, [1, b] → [a, b], is the library's
  `broadcastTo_1b_ab_apply`.)
-/
import Idealize.ShloMosaic.Lib.ValueLayout

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LayerBlock.lean ====
/-
  The layer arithmetic of both kernels read at one entry.

  On a block of 5000 nodes a body forms `relu((A ⊙ s) · Wlᵀ + b + X · Wrᵀ)`: `A` the block of neighbour sums, `s` the
  column of reciprocal degrees broadcast along the features, `X` the block of node features, `Wl`, `Wr` the two weight
  matrices (transposed before the product, so the contraction runs over the SECOND index of each), `b` the bias row
  broadcast over the nodes. A change of float format is the identity on the extended reals and the product starts from
  a zero accumulator, so entry `(p, q)` is the layer entry of the specification at row `p` of `A` and `X`, the scale
  `s p`, rows `q` of the two weight matrices and the bias `b q`.
-/
import proofs.«152969_j27470610825589_1_alg».proof.Proof.Gen.KernelIdeal.Skeleton
import proofs.«152969_j27470610825589_1_alg».proof.Proof.Spec
import proofs.«152969_j27470610825589_1_alg».proof.Proof.LibPlainMatmul
import proofs.«152969_j27470610825589_1_alg».proof.Proof.LibColumnBroadcast
import Idealize.ShloMosaic.Lib.ValueLayout
import Idealize.ShloMosaic.Lib.Pipeline.Value

noncomputable section

namespace Cert.Sage.Kern

open Cert.KernelIdeal Cert.KernelIdeal.Gen Idealize.ShloMosaic Idealize.ShloMosaic.ValueIdx Idealize.ShloMosaic.Pipeline
open scoped BigOperators

/-- A product with a transposed 128 × 128 matrix from a zero accumulator: entry `(p, q)` is `Σ_k A(p,k) · W(q,k)`. -/
theorem matmul_transposed_apply {φ₁ φ₂ : FTy} (A : FVec Ideal S5000x128 φ₁) (W : FVec Ideal S128x128 φ₂) (p : Fin 5000) (q : Fin 128) :
    matmul dot_S5000x128_S128x128_S5000x128_1_0_0_1_n_n none A
        (transpose S128x128 [1, 0] W transposes_S128x128_p1_0_S128x128) (constant (F := Ideal) S5000x128 .f32 0x00000000#32) (ix2 p q)
      = ∑ k : Fin 128, A (ix2 p k) * W (ix2 q k) := by
  refine (matmul_plain_zero_apply dot_S5000x128_S128x128_S5000x128_1_0_0_1_n_n_wf none A _ p q).trans ?_
  exact Finset.sum_congr rfl fun k _ => by rw [transpose_ix2_apply]

/-- A layer on a block, the identity casts of the loaded blocks already dropped, at entry `(p, q)`. -/
theorem layer_block_apply (A : Vec Ideal S5000x128 .f32) (s : Vec Ideal S5000x1 .f32) (X : Vec Ideal S5000x128 .f32)
    (Wl Wr : Vec Ideal S128x128 .f32) (b : Vec Ideal S1x128 .f32) (p : Fin 5000) (q : Fin 128) :
    maximumf (addf (addf
        (matmul dot_S5000x128_S128x128_S5000x128_1_0_0_1_n_n none
          (truncf .bf16 (mulf A (broadcastTo S5000x128 s broadcasts_S5000x1_S5000x128)) bitsLt_bf16_f32)
          (transpose S128x128 [1, 0] (truncf .bf16 Wl bitsLt_bf16_f32) transposes_S128x128_p1_0_S128x128)
          (constant S5000x128 .f32 0x00000000#32))
        (broadcastTo S5000x128 b broadcasts_S1x128_S5000x128))
        (matmul dot_S5000x128_S128x128_S5000x128_1_0_0_1_n_n none (truncf .bf16 X bitsLt_bf16_f32)
          (transpose S128x128 [1, 0] (truncf .bf16 Wr bitsLt_bf16_f32) transposes_S128x128_p1_0_S128x128)
          (constant S5000x128 .f32 0x00000000#32)))
      (broadcast S5000x128 (Scalar.ofBits (F := Ideal) .f32 0x00000000#32)) (ix2 p q)
    = layerEntry (fun k => A (ix2 p k)) (fun k => X (ix2 p k)) (s (ix2 p 0)) (fun k => Wl (ix2 q k)) (fun k => Wr (ix2 q k))
        (b (ix2 0 q)) := by
  unfold layerEntry
  rw [maximumf_apply, addf_apply, addf_apply, matmul_transposed_apply, matmul_transposed_apply, broadcastTo_1b_ab_apply]
  simp only [truncf_apply, mulf_apply, broadcastTo_a1_ab_apply, broadcast_apply]
  rfl

/-- The first kernel's stored value at entry `(p, q)` of its block. -/
theorem k0_pay1_apply (v0 : Vec Ideal S5000x128 .f32) (v2 : Vec Ideal S5000x1 .f32) (v7 : Vec Ideal S5000x128 .f32)
    (v9 v11 : Vec Ideal S128x128 .f32) (v15 : Vec Ideal S1x128 .f32) (p : Fin 5000) (q : Fin 128) :
    k0_pay1 v0 v2 v7 v9 v11 v15 (ix2 p q)
      = layerEntry (fun k => v0 (ix2 p k)) (fun k => v7 (ix2 p k)) (v2 (ix2 p 0)) (fun k => v9 (ix2 q k)) (fun k => v11 (ix2 q k))
          (v15 (ix2 0 q)) := by
  unfold k0_pay1
  simp only [shapeCast_self]
  exact layer_block_apply v0 v2 v7 v9 v11 v15 p q

end Cert.Sage.Kern

end
-- ==== Proof.Region0.lean ====
/-
  The first region's output array as one function of the arrays it finds.

  The grid has 10 points; point `t` fetches rows `5000·t … 5000·t + 4999` of the neighbour sums, of the reciprocal-degree
  column and of the node features, the two weight matrices and the bias row whole, and writes back rows
  `5000·t … 5000·t + 4999` of the output. Entry `(p, q)` of the block written at point `t` is the layer entry of the
  specification at rows `5000·t + p` of the row-blocked arrays, so every write-back is a block of ONE whole-array
  function, `layerK`; the ten blocks tile the 50000 rows, so after the region the output array is `layerK` of the arrays
  as the region found them.
-/
import proofs.«152969_j27470610825589_1_alg».proof.Proof.Gen.KernelIdeal.Frame
import proofs.«152969_j27470610825589_1_alg».proof.Proof.LayerBlock

set_option maxRecDepth 16384

noncomputable section

namespace Cert.Sage.Kern

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem off_zero : (![0, 0] : Fin 2 → Nat) = fun _ => 0 := funext fun a => by fin_cases a <;> rfl

/-- The first region's output array as a function of the arrays the region finds. -/
abbrev layer0 (c : Dev nD) : SNF.Idx → EReal :=
  layerK (V c main_v22) (V c main_v12) (V c main_arg0) (V c main_arg2) (V c main_v23) (V c main_arg4)

/-- The printed index maps over the grid: the three row-blocked inputs move with the output, block row `t`, block
    column `0`; the weights and the bias stay at block `(0, 0)`. -/
theorem index_facts0 : ∀ t : Fin cfg0.N,
    win0_6.index t (0 : Fin 2) = t.val ∧ win0_6.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

theorem lt_ten0 (t : Fin cfg0.N) : t.val < 10 := Nat.lt_of_lt_of_eq t.isLt N_0

/-- Row `p` of block `t` is row `5000·t + p` of the array. -/
def rowAt0 (t : Fin cfg0.N) (p : Fin 5000) : Fin 50000 :=
  ⟨5000 * t.val + p.val, by have := lt_ten0 t; have := p.isLt; omega⟩

/-- WHAT POINT `t` WRITES BACK is block `t` of the layer of the arrays as the region finds them. -/
theorem flushed0 (c : Dev nD) (t : Fin cfg0.N) :
    (dat0 V c).flushed 6 t = ((cfg0.win 6).blk t).view.read (Elt Ideal) (layer0 V c) := by
  show (cfg0.win 6).cut (grid0.coords t) ((dat0 V c).after 6 t) = _
  rw [after0_6]
  unfold out0_6
  rw [View.canon_unit_zero off_zero]
  simp only [View.ld_unit_zero (S := S5000x128) off_zero, View.ld_unit_zero (S := S5000x1) off_zero,
    View.ld_unit_zero (S := S128x128) off_zero, View.ld_unit_zero (S := S1x128) off_zero]
  obtain ⟨o0, o1, a0, a1, s0, s1, x0, x1, l0, l1, b0, b1, r0, r1⟩ := index_facts0 t
  funext j
  obtain ⟨p, q, rfl⟩ : ∃ (p : Fin 5000) (q : Fin 128), j = ix2 p q := ⟨j 0, j 1, eq_ix2 j⟩
  show k0_pay1 (iblk0 V c 0 t) (iblk0 V c 1 t) (iblk0 V c 2 t) (iblk0 V c 3 t) (iblk0 V c 5 t) (iblk0 V c 4 t) (ix2 p q)
    = layer0 V c (((cfg0.win 6).blk t).view.emb (ix2 p q))
  refine (k0_pay1_apply _ _ _ _ _ _ p q).trans ?_
  have hR : ((cfg0.win 6).blk t).view.emb (ix2 p q) = ix2 (n0 := 50000) (n1 := 128) (rowAt0 t p) q :=
    funext fun a => Fin.ext (by
      match a with
      | ⟨0, _⟩ => show win0_6.index t (0 : Fin 2) * 5000 + 1 * p.val = 5000 * t.val + p.val; omega
      | ⟨1, _⟩ => show win0_6.index t (1 : Fin 2) * 128 + 1 * q.val = q.val; omega)
  have h0 : ∀ k : Fin 128, iblk0 V c 0 t (ix2 p k) = V c main_v22 (ix2 (n0 := 50000) (n1 := 128) (rowAt0 t p) k) := fun k => by
    show V c main_v22 (((cfg0.win 0).blk t).view.emb (ix2 p k)) = _
    refine congrArg _ (funext fun a => Fin.ext ?_)
    match a with
    | ⟨0, _⟩ => show win0_0.index t (0 : Fin 2) * 5000 + 1 * p.val = 5000 * t.val + p.val; omega
    | ⟨1, _⟩ => show win0_0.index t (1 : Fin 2) * 128 + 1 * k.val = k.val; omega
  have h1 : iblk0 V c 1 t (ix2 p (0 : Fin 1)) = V c main_v12 (ix2 (n0 := 50000) (n1 := 1) (rowAt0 t p) 0) := by
    show V c main_v12 (((cfg0.win 1).blk t).view.emb (ix2 p (0 : Fin 1))) = _
    refine congrArg _ (funext fun a => Fin.ext ?_)
    match a with
    | ⟨0, _⟩ => show win0_1.index t (0 : Fin 2) * 5000 + 1 * p.val = 5000 * t.val + p.val; omega
    | ⟨1, _⟩ => show win0_1.index t (1 : Fin 2) * 1 + 1 * 0 = 0; omega
  have h2 : ∀ k : Fin 128, iblk0 V c 2 t (ix2 p k) = V c main_arg0 (ix2 (n0 := 50000) (n1 := 128) (rowAt0 t p) k) := fun k => by
    show V c main_arg0 (((cfg0.win 2).blk t).view.emb (ix2 p k)) = _
    refine congrArg _ (funext fun a => Fin.ext ?_)
    match a with
    | ⟨0, _⟩ => show win0_2.index t (0 : Fin 2) * 5000 + 1 * p.val = 5000 * t.val + p.val; omega
    | ⟨1, _⟩ => show win0_2.index t (1 : Fin 2) * 128 + 1 * k.val = k.val; omega
  have h3 : ∀ k : Fin 128, iblk0 V c 3 t (ix2 q k) = V c main_arg2 (ix2 (n0 := 128) (n1 := 128) q k) := fun k => by
    show V c main_arg2 (((cfg0.win 3).blk t).view.emb (ix2 q k)) = _
    refine congrArg _ (funext fun a => Fin.ext ?_)
    match a with
    | ⟨0, _⟩ => show win0_3.index t (0 : Fin 2) * 128 + 1 * q.val = q.val; omega
    | ⟨1, _⟩ => show win0_3.index t (1 : Fin 2) * 128 + 1 * k.val = k.val; omega
  have h5 : ∀ k : Fin 128, iblk0 V c 5 t (ix2 q k) = V c main_arg4 (ix2 (n0 := 128) (n1 := 128) q k) := fun k => by
    show V c main_arg4 (((cfg0.win 5).blk t).view.emb (ix2 q k)) = _
    refine congrArg _ (funext fun a => Fin.ext ?_)
    match a with
    | ⟨0, _⟩ => show win0_5.index t (0 : Fin 2) * 128 + 1 * q.val = q.val; omega
    | ⟨1, _⟩ => show win0_5.index t (1 : Fin 2) * 128 + 1 * k.val = k.val; omega
  have h4 : iblk0 V c 4 t (ix2 (0 : Fin 1) q) = V c main_v23 (ix2 (n0 := 1) (n1 := 128) 0 q) := by
    show V c main_v23 (((cfg0.win 4).blk t).view.emb (ix2 (0 : Fin 1) q)) = _
    refine congrArg _ (funext fun a => Fin.ext ?_)
    match a with
    | ⟨0, _⟩ => show win0_4.index t (0 : Fin 2) * 1 + 1 * 0 = 0; omega
    | ⟨1, _⟩ => show win0_4.index t (1 : Fin 2) * 128 + 1 * q.val = q.val; omega
  rw [hR]
  simp only [h0, h1, h2, h3, h4, h5]
  rfl

/-- An index of the output array is in point `t`'s block iff each coordinate is in the block's range on its axis. -/
theorem mem_blk0 (t : Fin cfg0.N) (i : S50000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v24).slice (win0_6.rect t)).set ↔ _
  rw [View.set_slice_whole, Rect.mem_set_unit]
  exact Iff.rfl

/-- Every index of the output array is in the block of the point `row / 5000`. -/
theorem cover0 (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  have hN : (i 0).val / 5000 < cfg0.N := by rw [show cfg0.N = 10 from N_0]; omega
  obtain ⟨o0, o1, -⟩ := index_facts0 ⟨(i 0).val / 5000, hN⟩
  refine ⟨⟨(i 0).val / 5000, hN⟩, flush0_6 _, ?_⟩
  rw [mem_blk0]
  intro a
  match a with
  | ⟨0, _⟩ =>
    show win0_6.index ⟨(i 0).val / 5000, hN⟩ (0 : Fin 2) * 5000 ≤ (i 0).val
      ∧ (i 0).val < win0_6.index ⟨(i 0).val / 5000, hN⟩ (0 : Fin 2) * 5000 + 5000
    have e : win0_6.index ⟨(i 0).val / 5000, hN⟩ (0 : Fin 2) = (i 0).val / 5000 := o0
    omega
  | ⟨1, _⟩ =>
    show win0_6.index ⟨(i 0).val / 5000, hN⟩ (1 : Fin 2) * 128 ≤ (i 1).val
      ∧ (i 1).val < win0_6.index ⟨(i 0).val / 5000, hN⟩ (1 : Fin 2) * 128 + 128
    omega

/-- THE ARRAY after the region: the layer of the arrays as the region found them. -/
theorem final0 (c : Dev nD) : (dat0 V c).arrAt 6 cfg0.N = layer0 V c :=
  (dat0 V c).arrAt_eq_of_cover 6 (layer0 V c) (fun t _ => flushed0 V c t) cover0

end Cert.Sage.Kern

end
-- ==== Proof.LibLaneSum.lean ====
/-
  The sum along the rows of a matrix, read at a row.

  Summing an [a, b] matrix over its second axis leaves a vector of length a whose entry i is the sum of the b entries
  of row i. The general statement names the summed entries through the index "entry i with coordinate k inserted on the
  summed axis"; for a matrix that index is simply (i, k).
-/
import Idealize.ShloMosaic.PureOps.Ideal.Laws
import Idealize.ShloMosaic.Lib.ValueIdx

open scoped BigOperators

namespace Idealize.ShloMosaic.ValueIdx

open Idealize.ShloMosaic

/-- Inserting coordinate `k` on axis 1 over the row index `i` gives the matrix index `(i, k)`. -/
theorem reduces_rows_lift {a b : ℕ} (h : (⟨2, ![a, b]⟩ : Shape).Reduces [1] ⟨1, ![a]⟩) (i : Fin a) (k : Fin b) :
    h.lift (ix1 i) k = ix2 i k := by
  funext ax; apply Fin.ext
  show h.liftVal (ix1 i) k.val ax = (ix2 i k ax).val
  unfold Shape.Reduces.liftVal
  match ax with
  | ⟨0, _⟩ => rfl
  | ⟨1, _⟩ => rfl

/-- The sum of an `[a, b]` matrix over axis 1, at the exact extended reals, read at row `i`: the sum of that row. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ c : Fin b, src (ix2 i c) := by
  refine (Ideal.multiReduction_add_single src acc h hφ hacc (ix1 i)).trans ?_
  exact Finset.sum_congr rfl fun c _ => congrArg src (reduces_rows_lift h i c)

end Idealize.ShloMosaic.ValueIdx
-- ==== Proof.LibLaneMax.lean ====
/-
  The maximum along the rows of a matrix, read at a row.

  Taking the maximum of an [a, b] matrix over its second axis, started from an accumulator word, leaves a vector of
  length a whose entry i is the maximum of that word's value and the b entries of row i — the fold of `max` over the
  row's coordinates. The general statement names the entries through the index "entry i with coordinate k inserted
  on the reduced axis"; for a matrix that index is (i, k). (The companion for a sum is `multiReduction_add_rows_apply`.)
-/
import proofs.«152969_j27470610825589_1_alg».proof.Proof.LibLaneSum

namespace Idealize.ShloMosaic.ValueIdx

open Idealize.ShloMosaic

/-- The maximum of an `[a, b]` matrix over axis 1, at the exact extended reals, read at row `i`: the fold of `max`
    from the accumulator's value over that row. -/
theorem multiReduction_maximumf_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (FloatOps.ofBits (F := Ideal) φ acc) (fun c => src (ix2 i c)) := by
  refine (Ideal.multiReduction_maximumf_single src acc h hφ hacc (ix1 i)).trans ?_
  exact congrArg (fun f => (Finset.univ : Finset (Fin b)).fold max (FloatOps.ofBits (F := Ideal) φ acc) f)
    (funext fun c => congrArg src (reduces_rows_lift h i c))

end Idealize.ShloMosaic.ValueIdx
-- ==== Proof.LibColumnCast.lean ====
/-
  A vector cast to a one-column matrix, read at an entry.

  The row-major position of entry (i, 0) of an [a, 1] matrix is i · 1 + 0 = i, the position of entry i of the
  [a] vector it was cast from; so the cast reads the vector's entry i there. (The companion forms for a leading
  unit axis, [a] → [1, a] and back, are the library's `shapeCast_a_1a_apply` and `shapeCast_1a_a_apply`.)
-/
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Idealize.ShloMosaic.ValueIdx
-- ==== Proof.HeadBlock.lean ====
/-
  The second kernel's arithmetic read at one entry.

  After its layer (the same arithmetic as the first kernel's) the body multiplies by the transposed 2 × 128 classifier
  matrix and adds the bias row: the two logits of each node. It then takes each row's maximum `m` (a fold of `max`
  from −∞ over the two columns, so the larger of the two logits), subtracts it, exponentiates, adds the two columns,
  takes the logarithm, adds `m` back, and subtracts the result from the logits: entry `(p, j)` is
  `l j − (m + log Σ_j' exp(l j' − m))` with `l` the two logits of node `p`.
-/
import proofs.«152969_j27470610825589_1_alg».proof.Proof.LayerBlock
import proofs.«152969_j27470610825589_1_alg».proof.Proof.LibLaneMax
import proofs.«152969_j27470610825589_1_alg».proof.Proof.LibColumnCast

noncomputable section

namespace Cert.Sage.Kern

open Cert.KernelIdeal Cert.KernelIdeal.Gen Idealize.ShloMosaic Idealize.ShloMosaic.ValueIdx Idealize.ShloMosaic.Pipeline
open scoped BigOperators

/-- A product with the transposed 2 × 128 matrix from a zero accumulator: entry `(p, j)` is `Σ_k H(p,k) · W(j,k)`. -/
theorem matmul_head_apply {φ₁ φ₂ : FTy} (H : FVec Ideal S5000x128 φ₁) (W : FVec Ideal S2x128 φ₂) (p : Fin 5000) (j : Fin 2) :
    matmul dot_S5000x128_S128x2_S5000x2_1_0_0_1_n_n none H
        (transpose S128x2 [1, 0] W transposes_S2x128_p1_0_S128x2) (constant (F := Ideal) S5000x2 .f32 0x00000000#32) (ix2 p j)
      = ∑ k : Fin 128, H (ix2 p k) * W (ix2 j k) := by
  refine (matmul_plain_zero_apply dot_S5000x128_S128x2_S5000x2_1_0_0_1_n_n_wf none H _ p j).trans ?_
  exact Finset.sum_congr rfl fun k _ => by rw [transpose_ix2_apply]

/-- The float −∞ is the bottom of the extended reals. -/
theorem ofBits_neg_inf : Ideal.ofBits .f32 0xFF800000#32 = (⊥ : EReal) := by
  simp [Ideal.ofBits, Ideal.ieee]

/-- A fold of `max` over two columns from the bottom element is the larger of the two. -/
theorem fold_max_two (f : Fin 2 → EReal) : (Finset.univ : Finset (Fin 2)).fold max (⊥ : EReal) f = max (f 0) (f 1) := by
  rw [show (Finset.univ : Finset (Fin 2)) = insert 0 {1} from by decide, Finset.fold_insert (by decide),
    Finset.fold_singleton, max_bot_right]

/-- The two logits of node `p` of a block, from the loaded blocks. -/
def logitsBlock (v0 : Vec Ideal S5000x128 .f32) (v2 : Vec Ideal S5000x1 .f32) (v7 : Vec Ideal S5000x128 .f32)
    (v10 v12 : Vec Ideal S128x128 .f32) (v16 : Vec Ideal S1x128 .f32) (v26 : Vec Ideal S2x128 .f32) (v30 : Vec Ideal S1x2 .f32)
    (p : Fin 5000) : Fin 2 → EReal := fun j =>
  logitEntry (fun k => layerEntry (fun k' => v0 (ix2 p k')) (fun k' => v7 (ix2 p k')) (v2 (ix2 p 0)) (fun k' => v10 (ix2 k k'))
      (fun k' => v12 (ix2 k k')) (v16 (ix2 0 k))) (fun k => v26 (ix2 j k)) (v30 (ix2 0 j))

/-- The logits payload at entry `(p, j)`. -/
theorem k1_pay2_apply (v0 : Vec Ideal S5000x128 .f32) (v2 : Vec Ideal S5000x1 .f32) (v7 : Vec Ideal S5000x128 .f32)
    (v10 v12 : Vec Ideal S128x128 .f32) (v16 : Vec Ideal S1x128 .f32) (v26 : Vec Ideal S2x128 .f32) (v30 : Vec Ideal S1x2 .f32)
    (p : Fin 5000) (j : Fin 2) :
    k1_pay2 v0 v2 v7 v10 v12 v16 v26 v30 (ix2 p j) = logitsBlock v0 v2 v7 v10 v12 v16 v26 v30 p j := by
  unfold k1_pay2 logitsBlock logitEntry
  simp only [shapeCast_self]
  rw [addf_apply, matmul_head_apply, broadcastTo_1b_ab_apply]
  refine congrArg (· + _) (Finset.sum_congr rfl fun k _ => ?_)
  rw [truncf_apply, truncf_apply]
  exact congrArg (· * _) (layer_block_apply v0 v2 v7 v10 v12 v16 p k)

/-- The row-maximum payload at `(p, u)`: the larger of node `p`'s two logits. -/
theorem k1_pay3_apply (v0 : Vec Ideal S5000x128 .f32) (v2 : Vec Ideal S5000x1 .f32) (v7 : Vec Ideal S5000x128 .f32)
    (v10 v12 : Vec Ideal S128x128 .f32) (v16 : Vec Ideal S1x128 .f32) (v26 : Vec Ideal S2x128 .f32) (v30 : Vec Ideal S1x2 .f32)
    (p : Fin 5000) (u : Fin 1) :
    k1_pay3 v0 v2 v7 v10 v12 v16 v26 v30 (ix2 p u)
      = max (logitsBlock v0 v2 v7 v10 v12 v16 v26 v30 p 0) (logitsBlock v0 v2 v7 v10 v12 v16 v26 v30 p 1) := by
  unfold k1_pay3
  dsimp only
  rw [shapeCast_a_a1_apply]
  refine (multiReduction_maximumf_rows_apply (k1_pay2 v0 v2 v7 v10 v12 v16 v26 v30) 0xFF800000#32 reduces_S5000x2_S5000
    (.inl rfl) rfl p).trans ?_
  show (Finset.univ : Finset (Fin 2)).fold max (Ideal.ofBits .f32 0xFF800000#32) _ = _
  rw [ofBits_neg_inf, fold_max_two]
  simp only [k1_pay2_apply]

/-- The shifted-logits payload at `(p, j)`. -/
theorem k1_pay4_apply (v0 : Vec Ideal S5000x128 .f32) (v2 : Vec Ideal S5000x1 .f32) (v7 : Vec Ideal S5000x128 .f32)
    (v10 v12 : Vec Ideal S128x128 .f32) (v16 : Vec Ideal S1x128 .f32) (v26 : Vec Ideal S2x128 .f32) (v30 : Vec Ideal S1x2 .f32)
    (p : Fin 5000) (j : Fin 2) :
    k1_pay4 v0 v2 v7 v10 v12 v16 v26 v30 (ix2 p j)
      = logitsBlock v0 v2 v7 v10 v12 v16 v26 v30 p j
        - max (logitsBlock v0 v2 v7 v10 v12 v16 v26 v30 p 0) (logitsBlock v0 v2 v7 v10 v12 v16 v26 v30 p 1) := by
  unfold k1_pay4
  try dsimp only
  rw [subf_apply, broadcastTo_a1_ab_apply, k1_pay2_apply, k1_pay3_apply]

/-- The stored value of the second kernel at entry `(p, j)`, from the three intermediate payloads read at node `p`. -/
theorem k1_pay1_apply (v33 : FVec Ideal S5000x2 .f32) (v35 : FVec Ideal S5000x1 .f32) (v37 : FVec Ideal S5000x2 .f32)
    (p : Fin 5000) (j : Fin 2) :
    k1_pay1 v33 v35 v37 (ix2 p j)
      = v33 (ix2 p j) - (v35 (ix2 p 0) + Ideal.log (∑ c : Fin 2, Ideal.exp (v37 (ix2 p c)))) := by
  unfold k1_pay1
  dsimp only
  rw [subf_apply, broadcastTo_a1_ab_apply, addf_apply]
  show _ - (_ + Ideal.log (shapeCast S5000x1 _ shapeCasts_S5000_S5000x1 (ix2 p 0))) = _
  rw [shapeCast_a_a1_apply]
  refine congrArg (fun X => v33 (ix2 p j) - (v35 (ix2 p 0) + Ideal.log X)) ?_
  exact multiReduction_add_rows_apply (exp v37) 0x00000000#32 reduces_S5000x2_S5000 (.inl rfl) rfl p

/-- The second kernel's stored value at entry `(p, j)` of its block: the log-softmax of node `p`'s two logits. -/
theorem final_block_apply (v0 : Vec Ideal S5000x128 .f32) (v2 : Vec Ideal S5000x1 .f32) (v7 : Vec Ideal S5000x128 .f32)
    (v10 v12 : Vec Ideal S128x128 .f32) (v16 : Vec Ideal S1x128 .f32) (v26 : Vec Ideal S2x128 .f32) (v30 : Vec Ideal S1x2 .f32)
    (p : Fin 5000) (j : Fin 2) :
    k1_pay1 (k1_pay2 v0 v2 v7 v10 v12 v16 v26 v30) (k1_pay3 v0 v2 v7 v10 v12 v16 v26 v30) (k1_pay4 v0 v2 v7 v10 v12 v16 v26 v30) (ix2 p j)
      = lsmK (logitsBlock v0 v2 v7 v10 v12 v16 v26 v30 p) j := by
  rw [k1_pay1_apply, k1_pay2_apply, k1_pay3_apply]
  simp only [k1_pay4_apply]
  rfl

end Cert.Sage.Kern

end
-- ==== Proof.Region1.lean ====
/-
  The second region's output array as one function of the arrays it finds.

  The grid has 10 points; point `t` fetches rows `5000·t … 5000·t + 4999` of the first layer's output, of the second
  neighbour sums and of the reciprocal-degree column, and the second layer's two weight matrices, its bias row, the
  2 × 128 classifier matrix and the classifier's bias row whole; it writes back rows `5000·t … 5000·t + 4999` of the
  50000 × 2 output. Entry `(p, j)` of the block written at point `t` is the log-softmax of node `5000·t + p`'s two
  logits, the logits taken from the second layer at that node. So every write-back is a block of ONE whole-array
  function, and the ten blocks tile the 50000 rows.
-/
import proofs.«152969_j27470610825589_1_alg».proof.Proof.Gen.KernelIdeal.Frame
import proofs.«152969_j27470610825589_1_alg».proof.Proof.HeadBlock

set_option maxRecDepth 16384

noncomputable section

namespace Cert.Sage.Kern

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem off_zero1 : (![0, 0] : Fin 2 → Nat) = fun _ => 0 := funext fun a => by fin_cases a <;> rfl

/-- The head of the network on a whole array of second-layer outputs: each node's two logits (the classifier's bias
    given as a row), then the log-softmax of the pair. -/
def headK (H : SNF.Idx → EReal) (Wlin : S2F.Idx → EReal) (bRow : S12.Idx → EReal) : SN2.Idx → EReal := fun i =>
  lsmK (fun j => logitEntry (fun k => H (ix2 (n0 := 50000) (n1 := 128) (i 0) k)) (fun k => Wlin (ix2 (n0 := 2) (n1 := 128) j k))
    (bRow (ix2 (n0 := 1) (n1 := 2) 0 j))) (i 1)

/-- The second region's output array as a function of the arrays the region finds. -/
abbrev out1 (c : Dev nD) : SN2.Idx → EReal :=
  headK (layerK (V c main_v34) (V c main_v12) (V c main_v24) (V c main_arg5) (V c main_v35) (V c main_arg7))
    (V c main_arg8) (V c main_v36)

/-- The printed index maps over the grid: the three row-blocked inputs move with the output, block row `t`, block
    column `0`; the weights and the bias rows stay at block `(0, 0)`. -/
theorem index_facts1 : ∀ t : Fin cfg1.N,
    win1_8.index t (0 : Fin 2) = t.val ∧ win1_8.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0 :=
  (by decide +kernel : ∀ t : Fin grid1.N, _)

theorem lt_ten1 (t : Fin cfg1.N) : t.val < 10 := Nat.lt_of_lt_of_eq t.isLt N_1

/-- Row `p` of block `t` is row `5000·t + p` of the array. -/
def rowAt1 (t : Fin cfg1.N) (p : Fin 5000) : Fin 50000 :=
  ⟨5000 * t.val + p.val, by have := lt_ten1 t; have := p.isLt; omega⟩

/-- WHAT POINT `t` WRITES BACK is block `t` of the head of the arrays as the region finds them. -/
theorem flushed1 (c : Dev nD) (t : Fin cfg1.N) :
    (dat1 V c).flushed 8 t = ((cfg1.win 8).blk t).view.read (Elt Ideal) (out1 V c) := by
  show (cfg1.win 8).cut (grid1.coords t) ((dat1 V c).after 8 t) = _
  rw [after1_8]
  unfold out1_8
  rw [View.canon_unit_zero off_zero1]
  simp only [View.ld_unit_zero (S := S5000x128) off_zero1, View.ld_unit_zero (S := S5000x1) off_zero1,
    View.ld_unit_zero (S := S128x128) off_zero1, View.ld_unit_zero (S := S1x128) off_zero1,
    View.ld_unit_zero (S := S2x128) off_zero1, View.ld_unit_zero (S := S1x2) off_zero1]
  obtain ⟨o0, o1, h0i, h1i, a0, a1, s0, s1, l0, l1, b0, b1, r0, r1, w0, w1, c0, c1⟩ := index_facts1 t
  funext jj
  obtain ⟨p, j, rfl⟩ : ∃ (p : Fin 5000) (j : Fin 2), jj = ix2 p j := ⟨jj 0, jj 1, eq_ix2 jj⟩
  show k1_pay1
      (k1_pay2 (iblk1 V c 1 t) (iblk1 V c 2 t) (iblk1 V c 0 t) (iblk1 V c 3 t) (iblk1 V c 5 t) (iblk1 V c 4 t) (iblk1 V c 6 t) (iblk1 V c 7 t))
      (k1_pay3 (iblk1 V c 1 t) (iblk1 V c 2 t) (iblk1 V c 0 t) (iblk1 V c 3 t) (iblk1 V c 5 t) (iblk1 V c 4 t) (iblk1 V c 6 t) (iblk1 V c 7 t))
      (k1_pay4 (iblk1 V c 1 t) (iblk1 V c 2 t) (iblk1 V c 0 t) (iblk1 V c 3 t) (iblk1 V c 5 t) (iblk1 V c 4 t) (iblk1 V c 6 t) (iblk1 V c 7 t))
      (ix2 p j)
    = out1 V c (((cfg1.win 8).blk t).view.emb (ix2 p j))
  refine (final_block_apply _ _ _ _ _ _ _ _ p j).trans ?_
  have hR : ((cfg1.win 8).blk t).view.emb (ix2 p j) = ix2 (n0 := 50000) (n1 := 2) (rowAt1 t p) j :=
    funext fun a => Fin.ext (by
      match a with
      | ⟨0, _⟩ => show win1_8.index t (0 : Fin 2) * 5000 + 1 * p.val = 5000 * t.val + p.val; omega
      | ⟨1, _⟩ => show win1_8.index t (1 : Fin 2) * 2 + 1 * j.val = j.val; omega)
  have e1 : ∀ k : Fin 128, iblk1 V c 1 t (ix2 p k) = V c main_v34 (ix2 (n0 := 50000) (n1 := 128) (rowAt1 t p) k) := fun k => by
    show V c main_v34 (((cfg1.win 1).blk t).view.emb (ix2 p k)) = _
    refine congrArg _ (funext fun a => Fin.ext ?_)
    match a with
    | ⟨0, _⟩ => show win1_1.index t (0 : Fin 2) * 5000 + 1 * p.val = 5000 * t.val + p.val; omega
    | ⟨1, _⟩ => show win1_1.index t (1 : Fin 2) * 128 + 1 * k.val = k.val; omega
  have e2 : iblk1 V c 2 t (ix2 p (0 : Fin 1)) = V c main_v12 (ix2 (n0 := 50000) (n1 := 1) (rowAt1 t p) 0) := by
    show V c main_v12 (((cfg1.win 2).blk t).view.emb (ix2 p (0 : Fin 1))) = _
    refine congrArg _ (funext fun a => Fin.ext ?_)
    match a with
    | ⟨0, _⟩ => show win1_2.index t (0 : Fin 2) * 5000 + 1 * p.val = 5000 * t.val + p.val; omega
    | ⟨1, _⟩ => show win1_2.index t (1 : Fin 2) * 1 + 1 * 0 = 0; omega
  have e0 : ∀ k : Fin 128, iblk1 V c 0 t (ix2 p k) = V c main_v24 (ix2 (n0 := 50000) (n1 := 128) (rowAt1 t p) k) := fun k => by
    show V c main_v24 (((cfg1.win 0).blk t).view.emb (ix2 p k)) = _
    refine congrArg _ (funext fun a => Fin.ext ?_)
    match a with
    | ⟨0, _⟩ => show win1_0.index t (0 : Fin 2) * 5000 + 1 * p.val = 5000 * t.val + p.val; omega
    | ⟨1, _⟩ => show win1_0.index t (1 : Fin 2) * 128 + 1 * k.val = k.val; omega
  have e3 : ∀ k k' : Fin 128, iblk1 V c 3 t (ix2 k k') = V c main_arg5 (ix2 (n0 := 128) (n1 := 128) k k') := fun k k' => by
    show V c main_arg5 (((cfg1.win 3).blk t).view.emb (ix2 k k')) = _
    refine congrArg _ (funext fun a => Fin.ext ?_)
    match a with
    | ⟨0, _⟩ => show win1_3.index t (0 : Fin 2) * 128 + 1 * k.val = k.val; omega
    | ⟨1, _⟩ => show win1_3.index t (1 : Fin 2) * 128 + 1 * k'.val = k'.val; omega
  have e5 : ∀ k k' : Fin 128, iblk1 V c 5 t (ix2 k k') = V c main_arg7 (ix2 (n0 := 128) (n1 := 128) k k') := fun k k' => by
    show V c main_arg7 (((cfg1.win 5).blk t).view.emb (ix2 k k')) = _
    refine congrArg _ (funext fun a => Fin.ext ?_)
    match a with
    | ⟨0, _⟩ => show win1_5.index t (0 : Fin 2) * 128 + 1 * k.val = k.val; omega
    | ⟨1, _⟩ => show win1_5.index t (1 : Fin 2) * 128 + 1 * k'.val = k'.val; omega
  have e4 : ∀ k : Fin 128, iblk1 V c 4 t (ix2 (0 : Fin 1) k) = V c main_v35 (ix2 (n0 := 1) (n1 := 128) 0 k) := fun k => by
    show V c main_v35 (((cfg1.win 4).blk t).view.emb (ix2 (0 : Fin 1) k)) = _
    refine congrArg _ (funext fun a => Fin.ext ?_)
    match a with
    | ⟨0, _⟩ => show win1_4.index t (0 : Fin 2) * 1 + 1 * 0 = 0; omega
    | ⟨1, _⟩ => show win1_4.index t (1 : Fin 2) * 128 + 1 * k.val = k.val; omega
  have e6 : ∀ (j' : Fin 2) (k : Fin 128), iblk1 V c 6 t (ix2 j' k) = V c main_arg8 (ix2 (n0 := 2) (n1 := 128) j' k) := fun j' k => by
    show V c main_arg8 (((cfg1.win 6).blk t).view.emb (ix2 j' k)) = _
    refine congrArg _ (funext fun a => Fin.ext ?_)
    match a with
    | ⟨0, _⟩ => show win1_6.index t (0 : Fin 2) * 2 + 1 * j'.val = j'.val; omega
    | ⟨1, _⟩ => show win1_6.index t (1 : Fin 2) * 128 + 1 * k.val = k.val; omega
  have e7 : ∀ j' : Fin 2, iblk1 V c 7 t (ix2 (0 : Fin 1) j') = V c main_v36 (ix2 (n0 := 1) (n1 := 2) 0 j') := fun j' => by
    show V c main_v36 (((cfg1.win 7).blk t).view.emb (ix2 (0 : Fin 1) j')) = _
    refine congrArg _ (funext fun a => Fin.ext ?_)
    match a with
    | ⟨0, _⟩ => show win1_7.index t (0 : Fin 2) * 1 + 1 * 0 = 0; omega
    | ⟨1, _⟩ => show win1_7.index t (1 : Fin 2) * 2 + 1 * j'.val = j'.val; omega
  rw [hR]
  unfold logitsBlock
  simp only [e0, e1, e2, e3, e4, e5, e6, e7]
  rfl

/-- An index of the output array is in point `t`'s block iff each coordinate is in the block's range on its axis. -/
theorem mem_blk1 (t : Fin cfg1.N) (i : S50000x2.Idx) :
    i ∈ ((cfg1.win 8).blk t).view.set ↔ ∀ a : Fin 2, win1_8.index t a * S5000x2.size a ≤ (i a).val
      ∧ (i a).val < win1_8.index t a * S5000x2.size a + S5000x2.size a := by
  show i ∈ ((View.whole main_v37).slice (win1_8.rect t)).set ↔ _
  rw [View.set_slice_whole, Rect.mem_set_unit]
  exact Iff.rfl

/-- Every index of the output array is in the block of the point `row / 5000`. -/
theorem cover1 (i : S50000x2.Idx) :
    ∃ t : Fin cfg1.N, (cfg1.win 8).flush t = true ∧ i ∈ ((cfg1.win 8).blk t).view.set := by
  have hi0 : (i 0).val < 50000 := (i 0).isLt
  have hi1 : (i 1).val < 2 := (i 1).isLt
  have hN : (i 0).val / 5000 < cfg1.N := by rw [show cfg1.N = 10 from N_1]; omega
  obtain ⟨o0, o1, -⟩ := index_facts1 ⟨(i 0).val / 5000, hN⟩
  refine ⟨⟨(i 0).val / 5000, hN⟩, flush1_8 _, ?_⟩
  rw [mem_blk1]
  intro a
  match a with
  | ⟨0, _⟩ =>
    show win1_8.index ⟨(i 0).val / 5000, hN⟩ (0 : Fin 2) * 5000 ≤ (i 0).val
      ∧ (i 0).val < win1_8.index ⟨(i 0).val / 5000, hN⟩ (0 : Fin 2) * 5000 + 5000
    have e : win1_8.index ⟨(i 0).val / 5000, hN⟩ (0 : Fin 2) = (i 0).val / 5000 := o0
    omega
  | ⟨1, _⟩ =>
    show win1_8.index ⟨(i 0).val / 5000, hN⟩ (1 : Fin 2) * 2 ≤ (i 1).val
      ∧ (i 1).val < win1_8.index ⟨(i 0).val / 5000, hN⟩ (1 : Fin 2) * 2 + 2
    omega

/-- THE ARRAY after the region: the head of the arrays as the region found them. -/
theorem final1 (c : Dev nD) : (dat1 V c).arrAt 8 cfg1.N = out1 V c :=
  (dat1 V c).arrAt_eq_of_cover 8 (out1 V c) (fun t _ => flushed1 V c t) cover1

end Cert.Sage.Kern

end
-- ==== Proof.KernelValue.lean ====
/-
  The idealized kernel program's result as the network of the specification.

  Reading the run backwards: the result is what the second region's write-backs leave, the head of the network applied
  to the second layer of the arrays that region finds; those are the first region's output (the first layer of the
  arrays IT finds), its neighbour aggregation, the reciprocal-degree column, and the arguments; and the first region
  finds the neighbour aggregation of the node features, the same column, and the arguments. The column is the
  reciprocal of the clamped in-degree entry by entry, a bias vector cast to a row reads the vector, and so the result is
  `netK` of the arguments with the aggregation and the clamped in-degree that the host operations compute.
-/
import proofs.«152969_j27470610825589_1_alg».proof.Proof.KernelRun
import proofs.«152969_j27470610825589_1_alg».proof.Proof.HostStretch
import proofs.«152969_j27470610825589_1_alg».proof.Proof.Region0
import proofs.«152969_j27470610825589_1_alg».proof.Proof.Region1

set_option maxRecDepth 16384

noncomputable section

namespace Cert.Sage.Kern

open Cert.KernelIdeal Cert.KernelIdeal.Gen Idealize.ShloMosaic Idealize.ShloMosaic.TcCoe Idealize.ShloMosaic.ValueIdx
open Idealize.SL.Sem

/-- The reciprocal of a divisor vector, cast to a column: entry `(p, u)` is one over the divisor's entry `p`. Stated
    for a vector of any length. -/
theorem recip_column_apply {n : ℕ} (d : (⟨1, ![n]⟩ : Shape).Idx → EReal)
    (hb : (⟨0, ![]⟩ : Shape).BroadcastsInDim ⟨1, ![n]⟩ (![] : Fin 0 → Fin 1)) (hc : (⟨1, ![n]⟩ : Shape).ShapeCasts ⟨2, ![n, 1]⟩)
    (p : Fin n) (u : Fin 1) :
    shapeCast ⟨2, ![n, 1]⟩ (Host.divf (broadcastInDim ⟨1, ![n]⟩ ![] hb (constant (F := Ideal) ⟨0, ![]⟩ .f32 0x3F800000#32)) d) hc (ix2 p u)
      = Ideal.div Of (d (ix1 p)) := by
  rw [shapeCast_a_a1_apply]
  rfl

/-- A vector of any length cast to a one-row matrix reads the vector. -/
theorem row_cast_apply {n : ℕ} (b : (⟨1, ![n]⟩ : Shape).Idx → EReal) (hc : (⟨1, ![n]⟩ : Shape).ShapeCasts ⟨2, ![1, n]⟩)
    (i : (⟨2, ![1, n]⟩ : Shape).Idx) : shapeCast ⟨2, ![1, n]⟩ b hc i = b (ix1 (i 1)) := by
  obtain ⟨u, q, rfl⟩ : ∃ (u : Fin 1) (q : Fin n), i = ix2 u q := ⟨i 0, i 1, eq_ix2 i⟩
  rw [shapeCast_a_1a_apply]
  rfl

/-- The reciprocal-degree column is the reciprocal of the clamped in-degree, entry by entry. -/
theorem invK_eq (e : (⟨S2x800000, .i32⟩ : BufTy).Contents (Elt Ideal)) : invK e = recipCol (degK e) := by
  funext i
  obtain ⟨p, u, rfl⟩ : ∃ (p : Fin 50000) (u : Fin 1), i = ix2 p u := ⟨i 0, i 1, eq_ix2 i⟩
  exact recip_column_apply (degK e) bcast_S_S50000 shapeCasts_S50000_S50000x1 p u

/-- A bias vector cast to a row reads the vector. -/
theorem biasRow_eq (b : (⟨S128, .f32⟩ : BufTy).Contents (Elt Ideal)) : shapeCast S1x128 b shapeCasts_S128_S1x128 = rowOf b :=
  funext fun i => row_cast_apply b shapeCasts_S128_S1x128 i

/-- Equal arrays give equal layers. -/
theorem layer_congr {A A' : SNF.Idx → EReal} {s s' : SN1.Idx → EReal} {X X' : SNF.Idx → EReal} {Wl Wl' : SFF.Idx → EReal}
    {b b' : S1F.Idx → EReal} {Wr Wr' : SFF.Idx → EReal} (hA : A = A') (hs : s = s') (hX : X = X') (hWl : Wl = Wl')
    (hb : b = b') (hWr : Wr = Wr') : layerK A s X Wl b Wr = layerK A' s' X' Wl' b' Wr' := by
  subst hA hs hX hWl hb hWr; rfl

/-- Equal arrays give equal heads. -/
theorem head_congr {H H' : SNF.Idx → EReal} {W W' : S2F.Idx → EReal} {b b' : S12.Idx → EReal} (hH : H = H') (hW : W = W')
    (hb : b = b') : headK H W b = headK H' W' b' := by
  subst hH hW hb; rfl

/-- The head on a classifier bias cast to a row is the specification's head on the bias vector. -/
theorem headK_row (H : SNF.Idx → EReal) (W : S2F.Idx → EReal) (b : (⟨S2, .f32⟩ : BufTy).Contents (Elt Ideal)) :
    headK H W (shapeCast S1x2 b shapeCasts_S2_S1x2) = fun i => lsmK (logitsRow H W b (i 0)) (i 1) := by
  funext i
  unfold headK logitsRow
  simp only [shapeCast_a_1a_apply]

variable (m : (ℓ : Loc nD τ sig) → Buf (Elt Ideal) ℓ) (ρ : Dev nD → PrngReg)

/-- The first region's output array, in the specification's terms. -/
theorem first_layer_value (c : Dev nD) :
    (dat0 (V1 m ρ) c).arrAt 6 cfg0.N = (layerK (aggK (m ((c : Thread nD τ).loc main_arg1)) (m ((c : Thread nD τ).loc main_arg0))) (recipCol (degK (m ((c : Thread nD τ).loc main_arg1)))) (m ((c : Thread nD τ).loc main_arg0)) (m ((c : Thread nD τ).loc main_arg2)) (rowOf (m ((c : Thread nD τ).loc main_arg3))) (m ((c : Thread nD τ).loc main_arg4))) :=
  (final0 (V1 m ρ) c).trans (layer_congr (V1_agg m ρ c) ((V1_inv m ρ c).trans (invK_eq _)) (V1_arg0 m ρ c) (V1_arg2 m ρ c)
    ((V1_bias m ρ c).trans (biasRow_eq _)) (V1_arg4 m ρ c))

/-- The contents of the result buffer after the run: the network of the specification, in its kernel arrangement. -/
theorem kernel_value (c : Dev nD) :
    W4 m ρ c (Proc.devRef .tc main_v37)
      = netK (aggK (m ((c : Thread nD τ).loc main_arg1))) (degK (m ((c : Thread nD τ).loc main_arg1)))
          (m ((c : Thread nD τ).loc main_arg0)) (m ((c : Thread nD τ).loc main_arg2)) (m ((c : Thread nD τ).loc main_arg3))
          (m ((c : Thread nD τ).loc main_arg4)) (m ((c : Thread nD τ).loc main_arg5)) (m ((c : Thread nD τ).loc main_arg6))
          (m ((c : Thread nD τ).loc main_arg7)) (m ((c : Thread nD τ).loc main_arg8)) (m ((c : Thread nD τ).loc main_arg9)) := by
  refine (W4_result m ρ c).trans ((final1 (V3 m ρ) c).trans ?_)
  have hagg2 : V3 m ρ c main_v34 = aggK (m ((c : Thread nD τ).loc main_arg1)) (layerK (aggK (m ((c : Thread nD τ).loc main_arg1)) (m ((c : Thread nD τ).loc main_arg0))) (recipCol (degK (m ((c : Thread nD τ).loc main_arg1)))) (m ((c : Thread nD τ).loc main_arg0)) (m ((c : Thread nD τ).loc main_arg2)) (rowOf (m ((c : Thread nD τ).loc main_arg3))) (m ((c : Thread nD τ).loc main_arg4))) :=
    (V3_agg m ρ c).trans (congrArg (aggK (m ((c : Thread nD τ).loc main_arg1))) ((W2_out0 m ρ c).trans (first_layer_value m ρ c)))
  have hh : V3 m ρ c main_v24 = (layerK (aggK (m ((c : Thread nD τ).loc main_arg1)) (m ((c : Thread nD τ).loc main_arg0))) (recipCol (degK (m ((c : Thread nD τ).loc main_arg1)))) (m ((c : Thread nD τ).loc main_arg0)) (m ((c : Thread nD τ).loc main_arg2)) (rowOf (m ((c : Thread nD τ).loc main_arg3))) (m ((c : Thread nD τ).loc main_arg4))) := (V3_h m ρ c).trans (first_layer_value m ρ c)
  refine (head_congr (layer_congr hagg2 ((V3_inv m ρ c).trans (invK_eq _)) hh (V3_arg5 m ρ c)
    ((V3_bias m ρ c).trans (biasRow_eq _)) (V3_arg7 m ρ c)) (V3_arg8 m ρ c) (V3_blin m ρ c)).trans ?_
  exact headK_row _ _ _

end Cert.Sage.Kern

end
-- ==== Proof.Finite.lean ====
/-
  From the precondition to real-valued inputs.

  The precondition is the conjunction, over the nine float inputs, of "every entry's absolute value is below +∞": an
  `and` over all the entries of the comparison `|x| < +∞`. When an `and` over a whole array is true every entry's
  comparison is true; `|x| = max x (−x)` is below `+∞` only when `x` is neither `+∞` nor `−∞`, that is, a real number.
-/
import proofs.«152969_j27470610825589_1_alg».proof.Pre_finite_inputs
import proofs.«152969_j27470610825589_1_alg».proof.Proof.Spec
import Idealize.ShloMosaic.Lib.ReduceAll
import Idealize.ShloMosaic.Lib.Affine
import Idealize.ShloMosaic.Lib.ValueIdx

noncomputable section

namespace Cert.Sage

open Idealize.ShloMosaic Idealize.ShloMosaic.ValueIdx

instance : Subsingleton (⟨0, ![]⟩ : Shape).Idx := ⟨fun a b => funext fun d => d.elim0⟩

/-- The float +∞ is the top of the extended reals. -/
theorem ofBits_pos_inf : Ideal.ofBits .f32 0x7F800000#32 = (⊤ : EReal) := by
  simp [Ideal.ofBits, Ideal.ieee]

/-- An extended real whose absolute value is below `⊤` is a real number. -/
theorem isReal_of_abs_lt_top {x : EReal} (h : max x (-x) < ⊤) : IsReal x := by
  induction x using EReal.rec with
  | bot => simp at h
  | top => simp at h
  | coe r => exact ⟨r, rfl⟩

/-- If "all entries have absolute value below +∞" evaluates to true, every entry is a real number. -/
theorem allReal_of_all_finite {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi (cmpf .olt (Host.absf x) (broadcastInDim s ![] hb (constant (F := Ideal) ⟨0, ![]⟩ .f32 0x7F800000#32)))
          (constantI ⟨0, ![]⟩ 1 1#1) hr hu ix0 = 1#1) : AllReal x := by
  intro i
  have hi := Host.reduce_andi_all _ _ hr hu ix0 e i
  have hi' : Ideal.cmp .olt (max (x i) (-(x i))) (Ideal.ofBits .f32 0x7F800000#32) = 1#1 := hi
  rw [ofBits_pos_inf] at hi'
  by_contra hn
  have hlt : ¬ (max (x i) (-(x i)) < ⊤) := fun hlt => hn (isReal_of_abs_lt_top hlt)
  have h0 : Ideal.cmp .olt (max (x i) (-(x i))) ⊤ = 0#1 := by simp [Ideal.cmp, hlt]
  rw [h0] at hi'
  exact absurd hi' (by decide)

/-- Under the precondition every float input is an array of real numbers. -/
theorem inputs_real [Cert.Pre_finite_inputs.Facts]
    {a0 : FVec Ideal Cert.Pre_finite_inputs.S50000x128 .f32} {a1 : IVec Cert.Pre_finite_inputs.S2x800000 32}
    {a2 : FVec Ideal Cert.Pre_finite_inputs.S128x128 .f32} {a3 : FVec Ideal Cert.Pre_finite_inputs.S128 .f32}
    {a4 a5 : FVec Ideal Cert.Pre_finite_inputs.S128x128 .f32} {a6 : FVec Ideal Cert.Pre_finite_inputs.S128 .f32}
    {a7 : FVec Ideal Cert.Pre_finite_inputs.S128x128 .f32} {a8 : FVec Ideal Cert.Pre_finite_inputs.S2x128 .f32}
    {a9 : FVec Ideal Cert.Pre_finite_inputs.S2 .f32}
    (h : Cert.Pre_finite_inputs.fn (F := Ideal) a0 a1 a2 a3 a4 a5 a6 a7 a8 a9 = fun _ => 1#1) :
    AllReal a0 ∧ AllReal a2 ∧ AllReal a3 ∧ AllReal a4 ∧ AllReal a5 ∧ AllReal a6 ∧ AllReal a7 ∧ AllReal a8 ∧ AllReal a9 := by
  have h0 := congrFun h ix0
  dsimp only [Cert.Pre_finite_inputs.fn, Cert.Pre_finite_inputs.fn_part1, Cert.Pre_finite_inputs.fn_part2] at h0
  obtain ⟨h8, e9⟩ := IntOp.andi_eq_one.1 h0
  obtain ⟨h7, e8⟩ := IntOp.andi_eq_one.1 h8
  obtain ⟨h6, e7⟩ := IntOp.andi_eq_one.1 h7
  obtain ⟨h5, e6⟩ := IntOp.andi_eq_one.1 h6
  obtain ⟨h4, e5⟩ := IntOp.andi_eq_one.1 h5
  obtain ⟨h3, e4⟩ := IntOp.andi_eq_one.1 h4
  obtain ⟨h2, e3⟩ := IntOp.andi_eq_one.1 h3
  obtain ⟨e0, e2⟩ := IntOp.andi_eq_one.1 h2
  exact ⟨allReal_of_all_finite a0 _ _ _ e0, allReal_of_all_finite a2 _ _ _ e2, allReal_of_all_finite a3 _ _ _ e3,
    allReal_of_all_finite a4 _ _ _ e4, allReal_of_all_finite a5 _ _ _ e5, allReal_of_all_finite a6 _ _ _ e6,
    allReal_of_all_finite a7 _ _ _ e7, allReal_of_all_finite a8 _ _ _ e8, allReal_of_all_finite a9 _ _ _ e9⟩

end Cert.Sage

end
-- ==== Proof.lean ====
/-
  The certificate of the two-layer neighbour-mean network with a log-softmax head.

  Both programs compute, per layer, `relu(mean · Wlᵀ + b + x · Wrᵀ)` with `mean` the neighbour sums over the clamped
  in-degree, and then the log-softmax of two logits per node. The kernel program multiplies the neighbour sums by the
  reciprocal of the clamped in-degree where the reference divides by it, and it regroups the log-softmax as
  `l − (m + log Σ exp(l − m))` where the reference computes `(l − m) − log Σ exp(l − m)`. On the extended reals the
  first pair agrees because the clamped in-degree is at least one, hence nonzero; the second pair agrees because the
  row maximum `m` is a real number, which is where the precondition is used: real inputs give real neighbour sums (a
  finite sum of gathered entries), real layers, real logits.

  The kernel program's result is read off its run over four segments (host operations, a pipelined region of 10 blocks
  of 5000 nodes, host operations, a second such region): each region's output array is one whole-array function of the
  arrays it finds. The reference's result is its host operations' composed term, read one operation at a time. Both
  are the network of the specification, in its two arrangements, at the same neighbour aggregation and clamped
  in-degree. The ideal pass rewrote nothing, so the kernel's idealization is its own text read at the extended reals.
-/
import proofs.«152969_j27470610825589_1_alg».proof.Defs
import proofs.«152969_j27470610825589_1_alg».proof.Proof.Gen.Kernel
import proofs.«152969_j27470610825589_1_alg».proof.Proof.Gen.Kernel.Frame
import proofs.«152969_j27470610825589_1_alg».proof.Proof.Gen.KernelIdeal
import proofs.«152969_j27470610825589_1_alg».proof.Proof.Gen.KernelIdeal.Frame
import proofs.«152969_j27470610825589_1_alg».proof.Proof.Gen.ReferenceIdeal
import proofs.«152969_j27470610825589_1_alg».proof.Proof.Gen.Pre_finite_inputs
import proofs.«152969_j27470610825589_1_alg».proof.Proof.RefRunP
import proofs.«152969_j27470610825589_1_alg».proof.Proof.RefReadP
import proofs.«152969_j27470610825589_1_alg».proof.Proof.RefValue
import proofs.«152969_j27470610825589_1_alg».proof.Proof.KernelValue
import proofs.«152969_j27470610825589_1_alg».proof.Proof.Finite
import Idealize.ShloMosaic.Adequacy
import Idealize.ShloMosaic.Init

set_option maxRecDepth 16384

noncomputable section

namespace Cert.Proof

open Idealize.ShloMosaic Idealize.SL.Sem Cert.Sage

/-! ## The two sides' neighbour aggregation and clamped in-degree are the same terms -/

/-- The reference's neighbour aggregation is the kernel program's: the same host operations on the same edge list. -/
theorem agg_eq (e : (⟨Cert.KernelIdeal.S2x800000, .i32⟩ : BufTy).Contents (Elt Ideal)) :
    Cert.Sage.Ref.agg e = Cert.Sage.Kern.aggK e := by
  funext h
  unfold Cert.Sage.Ref.agg Cert.Sage.Kern.aggK Cert.Sage.Kern.srcRow Cert.Sage.Kern.dstRow
  unfold Cert.ReferenceIdeal.ReadP.val_main_v11 Cert.ReferenceIdeal.ReadP.val_main_v12 Cert.ReferenceIdeal.ReadP.val_main_v9
    Cert.ReferenceIdeal.ReadP.val_main_v8 Cert.ReferenceIdeal.ReadP.val_main_v7 Cert.ReferenceIdeal.ReadP.val_main_v6
    Cert.ReferenceIdeal.ReadP.val_main_v5 Cert.ReferenceIdeal.ReadP.val_main_v4 Cert.ReferenceIdeal.ReadP.val_main_v3
    Cert.ReferenceIdeal.ReadP.val_main_v2 Cert.ReferenceIdeal.ReadP.val_main_v1 Cert.ReferenceIdeal.ReadP.val_main_v0
    Cert.ReferenceIdeal.ReadP.val_main_cst Cert.ReferenceIdeal.ReadP.val_main_c Cert.ReferenceIdeal.ReadP.val_main_c_0
  rfl

/-- The reference's clamped in-degree is the kernel program's. -/
theorem deg_eq (e : (⟨Cert.KernelIdeal.S2x800000, .i32⟩ : BufTy).Contents (Elt Ideal)) :
    Cert.Sage.Ref.deg1 e = Cert.Sage.Kern.degK e := by
  unfold Cert.Sage.Ref.deg1 Cert.Sage.Kern.degK Cert.Sage.Kern.dstRow
  unfold Cert.ReferenceIdeal.ReadP.val_main_v19 Cert.ReferenceIdeal.ReadP.val_main_v18 Cert.ReferenceIdeal.ReadP.val_main_v17
    Cert.ReferenceIdeal.ReadP.val_main_v16 Cert.ReferenceIdeal.ReadP.val_main_v15 Cert.ReferenceIdeal.ReadP.val_main_v14
    Cert.ReferenceIdeal.ReadP.val_main_v3 Cert.ReferenceIdeal.ReadP.val_main_v2
    Cert.ReferenceIdeal.ReadP.val_main_cst_1 Cert.ReferenceIdeal.ReadP.val_main_cst_2 Cert.ReferenceIdeal.ReadP.val_main_cst_3
  rfl

/-! ## The claims -/

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories agreeing on the arguments both idealized programs end with the network of the specification at the
    arguments: the kernel program in its arrangement (the value of its run), the reference in its own (its run's term
    read back), and under the precondition the two arrangements are one array. -/
theorem algebraic : Cert.algebraic_KernelIdeal_ReferenceIdeal := by
  intro m ρ m' ρ' hpre hagree
  refine ⟨fun c => netK (Cert.Sage.Kern.aggK (m ((c.tc : Thread Cert.KernelIdeal.nD Cert.KernelIdeal.τ).loc Cert.KernelIdeal.main_arg1)))
      (Cert.Sage.Kern.degK (m ((c.tc : Thread Cert.KernelIdeal.nD Cert.KernelIdeal.τ).loc Cert.KernelIdeal.main_arg1)))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.Sage.Kern.kernel_value m ρ c), (h c).2⟩) (Cert.Sage.Kern.run_value m ρ)
  · refine (θ_run Cert.ReferenceIdeal.defs _ _).mono (fun r h c => ⟨(h c).1.trans ?_, (h c).2⟩)
      (Cert.ReferenceIdeal.ValueP.run (F := Ideal) m' ρ')
    obtain ⟨h0, h1, h2, h3, h4, h5, h6, h7, h8, h9⟩ := hagree c
    obtain ⟨r0, r2, r3, r4, r5, r6, r7, r8, r9⟩ := inputs_real (hpre c)
    rw [Cert.ReferenceIdeal.ReadP.val_main_v65_eq, Cert.Sage.Ref.value_eq, h0, h1, h2, h3, h4, h5, h6, h7, h8, h9]
    show _ = netK (Cert.Sage.Kern.aggK _) (Cert.Sage.Kern.degK _) _ _ _ _ _ _ _ _ _
    rw [← agg_eq, ← deg_eq]
    exact (netK_eq_netR _ (Cert.Sage.Ref.agg_real _) _ (Cert.Sage.Ref.one_le_deg1 _) r0 r2 r3 r4 r5 r6 r7 r8 r9).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
